-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S512x784 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S1568x2048 : Shape := ⟨2, ![1568, 2048]⟩
abbrev S2048x1024 : Shape := ⟨2, ![2048, 1024]⟩
abbrev S1024x512 : Shape := ⟨2, ![1024, 512]⟩
abbrev S512x10 : Shape := ⟨2, ![512, 10]⟩
abbrev S2048 : Shape := ⟨1, ![2048]⟩
abbrev S1024 : Shape := ⟨1, ![1024]⟩
abbrev S512 : Shape := ⟨1, ![512]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S1568x2048 : S_.BroadcastsInDim S1568x2048 (![] : Fin 0 → Fin S1568x2048.rank)
  reducesTo_S1568x2048_S_d0_1 : S1568x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512x10 : S_.BroadcastsInDim S512x10 (![] : Fin 0 → Fin S512x10.rank)
  reducesTo_S512x10_S_d0_1 : S512x10.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S512 .f32) (main_arg10 : FVec F S512 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512x10 .f32) (main_arg5 : FVec F S2048 .f32) (main_arg6 : FVec F S2048 .f32) (main_arg7 : FVec F S1024 .f32) (main_arg8 : FVec F S1024 .f32) (main_arg9 : FVec F S512 .f32) (main_arg10 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512x10 .f32 := Host.absf main_arg4
  let main_cst_6 : FVec F S_ .f32 := constant S_ .f32 0x7F800000#32
  let main_v20 : FVec F S512x10 .f32 := broadcastInDim S512x10 ![] bcast_S_S512x10 main_cst_6
  let main_v21 : IVec S512x10 1 := cmpf .olt main_v19 main_v20
  let main_c_7 : IVec S_ 1 := constantI S_ 1 1#1
  let main_v22 : IVec S_ 1 := (fun x v => Host.reduce IntOp.andi x v reducesTo_S512x10_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x784 .f32) (main_arg1 : FVec F S1568x2048 .f32) (main_arg2 : FVec F S2048x1024 .f32) (main_arg3 : FVec F S1024x512 .f32) (main_arg4 : FVec F S512x10 .f32) (main_arg5 : FVec F S2048 .f32) (main_arg6 : FVec F S2048 .f32) (main_arg7 : FVec F S1024 .f32) (main_arg8 : FVec F S1024 .f32) (main_arg9 : FVec F S512 .f32) (main_arg10 : FVec F S512 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S1568x2048 .f32 := Host.absf main_arg1
  let main_cst_0 : FVec F S_ .f32 := constant S_ .f32 0x7F800000#32
  let main_v5 : FVec F S1568x2048 .f32 := broadcastInDim S1568x2048 ![] bcast_S_S1568x2048 main_cst_0
  let main_v6 : IVec S1568x2048 1 := cmpf .olt main_v4 main_v5
  let main_c_1 : IVec S_ 1 := constantI S_ 1 1#1
  let main_v7 : IVec S_ 1 := (fun x v => Host.reduce IntOp.andi x v reducesTo_S1568x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S32768x784 : Shape := ⟨2, ![32768, 784]⟩
abbrev S1568x2048 : Shape := ⟨2, ![1568, 2048]⟩
abbrev S2048x1024 : Shape := ⟨2, ![2048, 1024]⟩
abbrev S1024x512 : Shape := ⟨2, ![1024, 512]⟩
abbrev S512x10 : Shape := ⟨2, ![512, 10]⟩
abbrev S2048 : Shape := ⟨1, ![2048]⟩
abbrev S1024 : Shape := ⟨1, ![1024]⟩
abbrev S512 : Shape := ⟨1, ![512]⟩
abbrev S_ : Shape := ⟨0, ![]⟩
abbrev S784x2048 : Shape := ⟨2, ![784, 2048]⟩
abbrev S1x2048 : Shape := ⟨2, ![1, 2048]⟩
abbrev S1x1024 : Shape := ⟨2, ![1, 1024]⟩
abbrev S1x512 : Shape := ⟨2, ![1, 512]⟩
abbrev S32768x10 : Shape := ⟨2, ![32768, 10]⟩
abbrev S512x784 : Shape := ⟨2, ![512, 784]⟩
abbrev S512x2048 : Shape := ⟨2, ![512, 2048]⟩
abbrev S512x1 : Shape := ⟨2, ![512, 1]⟩
abbrev S512x1024 : Shape := ⟨2, ![512, 1024]⟩
abbrev S512x512 : Shape := ⟨2, ![512, 512]⟩

abbrev nBuf : Space → Nat
  | .hbm => 41
  | .vmem => 15
  | .smem => 0
  | _ => 0

abbrev bufTy : (tb : Table) → Fin (tcTables nBuf tb) → BufTy
  | .hbm, ⟨0, _⟩ => ⟨S32768x784, .f32⟩
  | .hbm, ⟨1, _⟩ => ⟨S1568x2048, .f32⟩
  | .hbm, ⟨2, _⟩ => ⟨S2048x1024, .f32⟩
  | .hbm, ⟨3, _⟩ => ⟨S1024x512, .f32⟩
  | .hbm, ⟨4, _⟩ => ⟨S512x10, .f32⟩
  | .hbm, ⟨5, _⟩ => ⟨S2048, .f32⟩
  | .hbm, ⟨6, _⟩ => ⟨S2048, .f32⟩
  | .hbm, ⟨7, _⟩ => ⟨S1024, .f32⟩
  | .hbm, ⟨8, _⟩ => ⟨S1024, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S1568x2048, .f32⟩
  | .hbm, ⟨13, _⟩ => ⟨S1568x2048, .i1⟩
  | .hbm, ⟨14, _⟩ => ⟨S1568x2048, .f32⟩
  | .hbm, ⟨15, _⟩ => ⟨S784x2048, .f32⟩
  | .hbm, ⟨16, _⟩ => ⟨S784x2048, .f32⟩
  | .hbm, ⟨17, _⟩ => ⟨S784x2048, .f32⟩
  | .hbm, ⟨18, _⟩ => ⟨S784x2048, .bf16⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S2048x1024, .f32⟩
  | .hbm, ⟨24, _⟩ => ⟨S2048x1024, .i1⟩
  | .hbm, ⟨25, _⟩ => ⟨S2048x1024, .bf16⟩
  | .hbm, ⟨26, _⟩ => ⟨S_, .f32⟩
  | .hbm, ⟨27, _⟩ => ⟨S1024x512, .f32⟩
  | .hbm, ⟨28, _⟩ => ⟨S1024x512, .i1⟩
  | .hbm, ⟨29, _⟩ => ⟨S1024x512, .bf16⟩
  | .hbm, ⟨30, _⟩ => ⟨S_, .f32⟩
  | .hbm, ⟨31, _⟩ => ⟨S512x10, .f32⟩
  | .hbm, ⟨32, _⟩ => ⟨S512x10, .i1⟩
  | .hbm, ⟨33, _⟩ => ⟨S512x10, .bf16⟩
  | .hbm, ⟨34, _⟩ => ⟨S1x2048, .f32⟩
  | .hbm, ⟨35, _⟩ => ⟨S1x2048, .f32⟩
  | .hbm, ⟨36, _⟩ => ⟨S1x1024, .f32⟩
  | .hbm, ⟨37, _⟩ => ⟨S1x1024, .f32⟩
  | .hbm, ⟨38, _⟩ => ⟨S1x512, .f32⟩
  | .hbm, ⟨39, _⟩ => ⟨S1x512, .f32⟩
  | .hbm, ⟨40, _⟩ => ⟨S32768x10, .f32⟩
  | .local _ .vmem, ⟨0, _⟩ => ⟨S512x784, .f32⟩
  | .local _ .vmem, ⟨1, _⟩ => ⟨S512x784, .f32⟩
  | .local _ .vmem, ⟨2, _⟩ => ⟨S784x2048, .bf16⟩
  | .local _ .vmem, ⟨3, _⟩ => ⟨S1x2048, .f32⟩
  | .local _ .vmem, ⟨4, _⟩ => ⟨S2048x1024, .bf16⟩
  | .local _ .vmem, ⟨5, _⟩ => ⟨S1024x512, .bf16⟩
  | .local _ .vmem, ⟨6, _⟩ => ⟨S512x10, .bf16⟩
  | .local _ .vmem, ⟨7, _⟩ => ⟨S1x2048, .f32⟩
  | .local _ .vmem, ⟨8, _⟩ => ⟨S1x2048, .f32⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S512x10, .f32⟩
  | .local _ .vmem, ⟨14, _⟩ => ⟨S512x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S1568x2048 : S_.BroadcastsInDim S1568x2048 (![] : Fin 0 → Fin S1568x2048.rank)
  slices_S1568x2048_S784x2048_0_0 : S1568x2048.Slices ![0, 0] S784x2048
  slices_S1568x2048_S784x2048_784_0 : S1568x2048.Slices ![784, 0] S784x2048
  bitsLt_bf16_f32 : FTy.bits .bf16 < FTy.bits .f32
  reducesTo_S784x2048_S2048_d0 : S784x2048.ReducesTo [0] S2048
  h_S_ : 0 < S_.numel
  bcast_S2048_S1x2048_1 : S2048.BroadcastsInDim S1x2048 (![1] : Fin 1 → Fin S1x2048.rank)
  bcast_S_S2048x1024 : S_.BroadcastsInDim S2048x1024 (![] : Fin 0 → Fin S2048x1024.rank)
  bcast_S_S1024x512 : S_.BroadcastsInDim S1024x512 (![] : Fin 0 → Fin S1024x512.rank)
  bcast_S_S512x10 : S_.BroadcastsInDim S512x10 (![] : Fin 0 → Fin S512x10.rank)
  shapeCasts_S2048_S1x2048 : S2048.ShapeCasts S1x2048
  shapeCasts_S1024_S1x1024 : S1024.ShapeCasts S1x1024
  shapeCasts_S512_S1x512 : S512.ShapeCasts S1x512
  inb_S512x784_S512x784_0_0 : ∀ a, (![0, 0] : Fin 2 → Nat) a + S512x784.size a ≤ S512x784.size a
  h_S512x784 : 0 < S512x784.numel
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  natLt_1_32 : 1 < 32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x1024_S512 : S512x1024.Reduces [1] S512
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S512x512_S512 : S512x512.Reduces [1] S512
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  dot_S512x784_S784x2048_S512x2048_1_0_0_1_n_n_wf : DotDims.WF S512x784 S784x2048 S512x2048 [1] [0] [0] [1] [] []
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x10_S512x10_1_0_0_1_n_n_wf : DotDims.WF S512x512 S512x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S32768x784.size a
  hwx0_0 : ∀ i : grid0.Coords, EltTy.bits .f32 = 32 ∨ (Rect.block (s := S32768x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S512x10.size a
  hwx0_5 : ∀ i : grid0.Coords, EltTy.bits .bf16 = 32 ∨ (Rect.block (s := S512x10) S512x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x10.size a ≤ S32768x10.size a
  hwx0_12 : ∀ i : grid0.Coords, EltTy.bits .f32 = 32 ∨ (Rect.block (s := S32768x10) S512x10.size (cc0_transform_12 i) (hinb0_12 i)).WholeWords (EltTy.packing .f32)

variable [Facts₀]

def dot_S512x784_S784x2048_S512x2048_1_0_0_1_n_n : DotDims S512x784 S784x2048 S512x2048 where
  lhsContracting := [1]
  rhsContracting := [0]
  lhsNonContracting := [0]
  rhsNonContracting := [1]
  lhsBatch := []
  rhsBatch := []
  wf := dot_S512x784_S784x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S512x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S512x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x784 : Shape := ⟨2, ![32768, 784]⟩
abbrev S1568x2048 : Shape := ⟨2, ![1568, 2048]⟩
abbrev S2048x1024 : Shape := ⟨2, ![2048, 1024]⟩
abbrev S1024x512 : Shape := ⟨2, ![1024, 512]⟩
abbrev S512x10 : Shape := ⟨2, ![512, 10]⟩
abbrev S2048 : Shape := ⟨1, ![2048]⟩
abbrev S1024 : Shape := ⟨1, ![1024]⟩
abbrev S512 : Shape := ⟨1, ![512]⟩
abbrev S_ : Shape := ⟨0, ![]⟩
abbrev S32768x1568 : Shape := ⟨2, ![32768, 1568]⟩
abbrev S32768x2048 : Shape := ⟨2, ![32768, 2048]⟩
abbrev S32768 : Shape := ⟨1, ![32768]⟩
abbrev S32768x1 : Shape := ⟨2, ![32768, 1]⟩
abbrev S1x2048 : Shape := ⟨2, ![1, 2048]⟩
abbrev S32768x1024 : Shape := ⟨2, ![32768, 1024]⟩
abbrev S1x1024 : Shape := ⟨2, ![1, 1024]⟩
abbrev S32768x512 : Shape := ⟨2, ![32768, 512]⟩
abbrev S1x512 : Shape := ⟨2, ![1, 512]⟩
abbrev S32768x10 : Shape := ⟨2, ![32768, 10]⟩

abbrev nBuf : Space → Nat
  | .hbm => 213
  | .vmem => 0
  | .smem => 0
  | _ => 0

abbrev hbmTy0_0 (i : Nat) : BufTy := match i % 128 with
  | 0 => ⟨S32768x784, .f32⟩
  | 1 => ⟨S1568x2048, .f32⟩
  | 2 => ⟨S2048x1024, .f32⟩
  | 3 => ⟨S1024x512, .f32⟩
  | 4 => ⟨S512x10, .f32⟩
  | 5 => ⟨S2048, .f32⟩
  | 6 => ⟨S2048, .f32⟩
  | 7 => ⟨S1024, .f32⟩
  | 8 => ⟨S1024, .f32⟩
  | 9 => ⟨S512, .f32⟩
  | 10 => ⟨S512, .f32⟩
  | 11 => ⟨S_, .f32⟩
  | 12 => ⟨S32768x784, .f32⟩
  | 13 => ⟨S32768x784, .f32⟩
  | 14 => ⟨S32768x1568, .f32⟩
  | 15 => ⟨S1568x2048, .f32⟩
  | 16 => ⟨S1568x2048, .f32⟩
  | 17 => ⟨S_, .f32⟩
  | 18 => ⟨S1568x2048, .f32⟩
  | 19 => ⟨S1568x2048, .f32⟩
  | 20 => ⟨S_, .f32⟩
  | 21 => ⟨S1568x2048, .f32⟩
  | 22 => ⟨S1568x2048, .f32⟩
  | 23 => ⟨S_, .f32⟩
  | 24 => ⟨S1568x2048, .f32⟩
  | 25 => ⟨S1568x2048, .i1⟩
  | 26 => ⟨S1568x2048, .f32⟩
  | 27 => ⟨S1568x2048, .f32⟩
  | 28 => ⟨S1568x2048, .f32⟩
  | 29 => ⟨S32768x2048, .f32⟩
  | 30 => ⟨S_, .f32⟩
  | 31 => ⟨S32768, .f32⟩
  | 32 => ⟨S32768x1, .f32⟩
  | 33 => ⟨S_, .f32⟩
  | 34 => ⟨S32768x1, .f32⟩
  | 35 => ⟨S32768x1, .f32⟩
  | 36 => ⟨S32768x2048, .f32⟩
  | 37 => ⟨S32768x2048, .f32⟩
  | 38 => ⟨S32768x2048, .f32⟩
  | 39 => ⟨S_, .f32⟩
  | 40 => ⟨S32768, .f32⟩
  | 41 => ⟨S32768x1, .f32⟩
  | 42 => ⟨S_, .f32⟩
  | 43 => ⟨S32768x1, .f32⟩
  | 44 => ⟨S32768x1, .f32⟩
  | 45 => ⟨S32768x2048, .f32⟩
  | 46 => ⟨S32768x2048, .f32⟩
  | 47 => ⟨S_, .f32⟩
  | 48 => ⟨S32768x1, .f32⟩
  | 49 => ⟨S32768x1, .f32⟩
  | 50 => ⟨S32768x1, .f32⟩
  | 51 => ⟨S32768x2048, .f32⟩
  | 52 => ⟨S32768x2048, .f32⟩
  | 53 => ⟨S1x2048, .f32⟩
  | 54 => ⟨S32768x2048, .f32⟩
  | 55 => ⟨S32768x2048, .f32⟩
  | 56 => ⟨S1x2048, .f32⟩
  | 57 => ⟨S32768x2048, .f32⟩
  | 58 => ⟨S32768x2048, .f32⟩
  | 59 => ⟨S_, .f32⟩
  | 60 => ⟨S32768x2048, .f32⟩
  | 61 => ⟨S32768x2048, .f32⟩
  | 62 => ⟨S32768x2048, .f32⟩
  | 63 => ⟨S32768x2048, .f32⟩
  | 64 => ⟨S_, .f32⟩
  | 65 => ⟨S32768x2048, .f32⟩
  | 66 => ⟨S32768x2048, .f32⟩
  | 67 => ⟨S_, .f32⟩
  | 68 => ⟨S32768x2048, .f32⟩
  | 69 => ⟨S32768x2048, .f32⟩
  | 70 => ⟨S_, .f32⟩
  | 71 => ⟨S32768x2048, .f32⟩
  | 72 => ⟨S32768x2048, .i1⟩
  | 73 => ⟨S32768x2048, .f32⟩
  | 74 => ⟨S32768x2048, .f32⟩
  | 75 => ⟨S32768x2048, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S_, .f32⟩
  | 85 => ⟨S2048x1024, .f32⟩
  | 86 => ⟨S2048x1024, .i1⟩
  | 87 => ⟨S2048x1024, .f32⟩
  | 88 => ⟨S2048x1024, .f32⟩
  | 89 => ⟨S2048x1024, .f32⟩
  | 90 => ⟨S32768x1024, .f32⟩
  | 91 => ⟨S_, .f32⟩
  | 92 => ⟨S32768, .f32⟩
  | 93 => ⟨S32768x1, .f32⟩
  | 94 => ⟨S_, .f32⟩
  | 95 => ⟨S32768x1, .f32⟩
  | 96 => ⟨S32768x1, .f32⟩
  | 97 => ⟨S32768x1024, .f32⟩
  | 98 => ⟨S32768x1024, .f32⟩
  | 99 => ⟨S32768x1024, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S32768x1024, .f32⟩
  | 107 => ⟨S32768x1024, .f32⟩
  | 108 => ⟨S_, .f32⟩
  | 109 => ⟨S32768x1, .f32⟩
  | 110 => ⟨S32768x1, .f32⟩
  | 111 => ⟨S32768x1, .f32⟩
  | 112 => ⟨S32768x1024, .f32⟩
  | 113 => ⟨S32768x1024, .f32⟩
  | 114 => ⟨S1x1024, .f32⟩
  | 115 => ⟨S32768x1024, .f32⟩
  | 116 => ⟨S32768x1024, .f32⟩
  | 117 => ⟨S1x1024, .f32⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S32768x1024, .f32⟩
  | 124 => ⟨S32768x1024, .f32⟩
  | 125 => ⟨S_, .f32⟩
  | 126 => ⟨S32768x1024, .f32⟩
  | 127 => ⟨S32768x1024, .f32⟩
  | _ => ⟨S32768x784, .f32⟩

abbrev hbmTy0_1 (i : Nat) : BufTy := match i % 128 with
  | 0 => ⟨S_, .f32⟩
  | 1 => ⟨S32768x1024, .f32⟩
  | 2 => ⟨S32768x1024, .f32⟩
  | 3 => ⟨S_, .f32⟩
  | 4 => ⟨S32768x1024, .f32⟩
  | 5 => ⟨S32768x1024, .i1⟩
  | 6 => ⟨S32768x1024, .f32⟩
  | 7 => ⟨S32768x1024, .f32⟩
  | 8 => ⟨S32768x1024, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S_, .f32⟩
  | 15 => ⟨S1024x512, .f32⟩
  | 16 => ⟨S1024x512, .f32⟩
  | 17 => ⟨S_, .f32⟩
  | 18 => ⟨S1024x512, .f32⟩
  | 19 => ⟨S1024x512, .i1⟩
  | 20 => ⟨S1024x512, .f32⟩
  | 21 => ⟨S1024x512, .f32⟩
  | 22 => ⟨S1024x512, .f32⟩
  | 23 => ⟨S32768x512, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S32768x512, .f32⟩
  | 31 => ⟨S32768x512, .f32⟩
  | 32 => ⟨S32768x512, .f32⟩
  | 33 => ⟨S_, .f32⟩
  | 34 => ⟨S32768, .f32⟩
  | 35 => ⟨S32768x1, .f32⟩
  | 36 => ⟨S_, .f32⟩
  | 37 => ⟨S32768x1, .f32⟩
  | 38 => ⟨S32768x1, .f32⟩
  | 39 => ⟨S32768x512, .f32⟩
  | 40 => ⟨S32768x512, .f32⟩
  | 41 => ⟨S_, .f32⟩
  | 42 => ⟨S32768x1, .f32⟩
  | 43 => ⟨S32768x1, .f32⟩
  | 44 => ⟨S32768x1, .f32⟩
  | 45 => ⟨S32768x512, .f32⟩
  | 46 => ⟨S32768x512, .f32⟩
  | 47 => ⟨S1x512, .f32⟩
  | 48 => ⟨S32768x512, .f32⟩
  | 49 => ⟨S32768x512, .f32⟩
  | 50 => ⟨S1x512, .f32⟩
  | 51 => ⟨S32768x512, .f32⟩
  | 52 => ⟨S32768x512, .f32⟩
  | 53 => ⟨S_, .f32⟩
  | 54 => ⟨S32768x512, .f32⟩
  | 55 => ⟨S32768x512, .f32⟩
  | 56 => ⟨S32768x512, .f32⟩
  | 57 => ⟨S32768x512, .f32⟩
  | 58 => ⟨S_, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S_, .f32⟩
  | 65 => ⟨S32768x512, .f32⟩
  | 66 => ⟨S32768x512, .i1⟩
  | 67 => ⟨S32768x512, .f32⟩
  | 68 => ⟨S32768x512, .f32⟩
  | 69 => ⟨S32768x512, .f32⟩
  | 70 => ⟨S512x10, .f32⟩
  | 71 => ⟨S512x10, .f32⟩
  | 72 => ⟨S_, .f32⟩
  | 73 => ⟨S512x10, .f32⟩
  | 74 => ⟨S512x10, .f32⟩
  | 75 => ⟨S_, .f32⟩
  | 76 => ⟨S512x10, .f32⟩
  | 77 => ⟨S512x10, .f32⟩
  | 78 => ⟨S_, .f32⟩
  | 79 => ⟨S512x10, .f32⟩
  | 80 => ⟨S512x10, .i1⟩
  | 81 => ⟨S512x10, .f32⟩
  | 82 => ⟨S512x10, .f32⟩
  | 83 => ⟨S512x10, .f32⟩
  | 84 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_17 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_19 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_cst_23 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_24 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_27 : Ref sig .tc := ⟨.hbm, 152, rfl⟩
abbrev main_v113 : Ref sig .tc := ⟨.hbm, 153, rfl⟩
abbrev main_v114 : Ref sig .tc := ⟨.hbm, 154, rfl⟩
abbrev main_cst_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_29 : Ref sig .tc := ⟨.hbm, 161, rfl⟩
abbrev main_v120 : Ref sig .tc := ⟨.hbm, 162, rfl⟩
abbrev main_v121 : Ref sig .tc := ⟨.hbm, 163, rfl⟩
abbrev main_cst_30 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_31 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_32 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_33 : Ref sig .tc := ⟨.hbm, 186, rfl⟩
abbrev main_v141 : Ref sig .tc := ⟨.hbm, 187, rfl⟩
abbrev main_v142 : Ref sig .tc := ⟨.hbm, 188, rfl⟩
abbrev main_cst_34 : Ref sig .tc := ⟨.hbm, 189, rfl⟩
abbrev main_v143 : Ref sig .tc := ⟨.hbm, 190, rfl⟩
abbrev main_v144 : Ref sig .tc := ⟨.hbm, 191, rfl⟩
abbrev main_cst_35 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_36 : Ref sig .tc := ⟨.hbm, 200, rfl⟩
abbrev main_v152 : Ref sig .tc := ⟨.hbm, 201, rfl⟩
abbrev main_v153 : Ref sig .tc := ⟨.hbm, 202, rfl⟩
abbrev main_cst_37 : Ref sig .tc := ⟨.hbm, 203, rfl⟩
abbrev main_v154 : Ref sig .tc := ⟨.hbm, 204, rfl⟩
abbrev main_v155 : Ref sig .tc := ⟨.hbm, 205, rfl⟩
abbrev main_cst_38 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩

abbrev nD : Nat := 1
abbrev τ : Topo := Topo.v7x

variable {F : FTy → Type} [FloatOps F]

class Facts₀ : Prop where
  bcast_S_S32768x784 : S_.BroadcastsInDim S32768x784 (![] : Fin 0 → Fin S32768x784.rank)
  concatenates_S32768x784_S32768x784_S32768x1568_d1 : Shape.Concatenates [S32768x784, S32768x784] S32768x1568 1
  bcast_S_S1568x2048 : S_.BroadcastsInDim S1568x2048 (![] : Fin 0 → Fin S1568x2048.rank)
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S_S2048x1024 : S_.BroadcastsInDim S2048x1024 (![] : Fin 0 → Fin S2048x1024.rank)
  reducesTo_S32768x1024_S32768_d1 : S32768x1024.ReducesTo [1] S32768
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S_S1024x512 : S_.BroadcastsInDim S1024x512 (![] : Fin 0 → Fin S1024x512.rank)
  reducesTo_S32768x512_S32768_d1 : S32768x512.ReducesTo [1] S32768
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S_S512x10 : S_.BroadcastsInDim S512x10 (![] : Fin 0 → Fin S512x10.rank)
  dot_S32768x1568_S1568x2048_S32768x2048_1_0_0_1_n_n_wf : DotDims.WF S32768x1568 S1568x2048 S32768x2048 [1] [0] [0] [1] [] []
  dot_S32768x2048_S2048x1024_S32768x1024_1_0_0_1_n_n_wf : DotDims.WF S32768x2048 S2048x1024 S32768x1024 [1] [0] [0] [1] [] []
  dot_S32768x1024_S1024x512_S32768x512_1_0_0_1_n_n_wf : DotDims.WF S32768x1024 S1024x512 S32768x512 [1] [0] [0] [1] [] []
  dot_S32768x512_S512x10_S32768x10_1_0_0_1_n_n_wf : DotDims.WF S32768x512 S512x10 S32768x10 [1] [0] [0] [1] [] []

variable [Facts₀]

def dot_S32768x1568_S1568x2048_S32768x2048_1_0_0_1_n_n : DotDims S32768x1568 S1568x2048 S32768x2048 where
  lhsContracting := [1]
  rhsContracting := [0]
  lhsNonContracting := [0]
  rhsNonContracting := [1]
  lhsBatch := []
  rhsBatch := []
  wf := dot_S32768x1568_S1568x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x10_S32768x10_1_0_0_1_n_n : DotDims S32768x512 S512x10 S32768x10 where
  lhsContracting := [1]
  rhsContracting := [0]
  lhsNonContracting := [0]
  rhsNonContracting := [1]
  lhsBatch := []
  rhsBatch := []
  wf := dot_S32768x512_S512x10_S32768x10_1_0_0_1_n_n_wf

class Facts : Prop extends Facts₀ where

variable [Facts]
-- ==== Proof.LibNormThreshold.lean ====
/-
  Reusable lemmas: the hard threshold, the straight-through estimator, and the layer normalisation of a row, over the
  extended reals.

  * hard z = 1 if 0 < z, else 0 — the comparison's bit read as an unsigned integer; a one-bit word widened to 32 bits and
    read signed is the same number, so both conversions a program may spell give it.
  * A straight-through estimator  soft + (hard - soft)  is  hard  whenever soft is a real, and the logistic function
    1 / (1 + exp(-z)) of ANY extended real is a real (0 at -inf, 1 at +inf): the identity needs no finiteness.
  * lnRow N eps h s b j = (h j - mean) * rsqrt (var + eps) * s j + b j  with  mean = (sum h) / N,
    var = (sum (h - mean)^2) / N;  dense a W j = sum_l a l * W l j.
  * The zero and one f32 words denote 0 and 1; a real sum's coercion is the sum of the coercions.
-/
import Idealize.ShloMosaic.PureOps.Ideal.Laws

noncomputable section

namespace Cert.NormThreshold

open Idealize.ShloMosaic

/-! ## Literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-! ## The hard threshold -/

/-- 1 where 0 < z, else 0: the comparison's bit read as an unsigned integer. -/
def hard (z : EReal) : EReal := (((Ideal.cmp .ogt z (Ideal.ofBits .f32 0x00000000#32)).toNat : ℝ) : EReal)

/-- The threshold is a real number. -/
theorem hard_real (z : EReal) : ∃ r : ℝ, hard z = (r : EReal) := ⟨_, rfl⟩

/-- A one-bit word widened to 32 bits and read signed is the bit read unsigned. -/
theorem bit_signed_eq_unsigned (b : BitVec 1) : ((b.setWidth 32).toInt : ℝ) = (b.toNat : ℝ) := by
  rcases BitVec.eq_zero_or_eq_one b with h | h <;> subst h <;> norm_num <;> decide

/-! ## A straight-through estimator is its hard part -/

/-- The logistic function of any extended real is a real. -/
theorem logistic_real (z : EReal) : ∃ r : ℝ, Ideal.logistic z = (r : EReal) := by
  induction z using EReal.rec with
  | bot => exact ⟨0, by simp⟩
  | coe r => exact ⟨_, Ideal.logistic_coe r⟩
  | top => exact ⟨1, by simp⟩

/-- soft + (hard - soft) = hard, for the logistic soft part of anything, spelt with the literal one as the programs do. -/
theorem ste (z w : EReal) :
    Ideal.div (Ideal.ofBits .f32 0x3F800000#32) (Ideal.ofBits .f32 0x3F800000#32 + Ideal.exp (-z))
      + (hard w - Ideal.div (Ideal.ofBits .f32 0x3F800000#32) (Ideal.ofBits .f32 0x3F800000#32 + Ideal.exp (-z))) = hard w := by
  rw [ofBits_one]
  obtain ⟨s, hs⟩ := logistic_real z
  obtain ⟨c, hc⟩ := hard_real w
  have hs' : Ideal.div 1 (1 + Ideal.exp (-z)) = (s : EReal) := hs
  rw [hs', hc, ← EReal.coe_sub, ← EReal.coe_add]
  congr 1; ring

/-! ## Layer normalisation of a row, and a dense layer -/

def lnRow {n : ℕ} (N eps : EReal) (h s b : Fin n → EReal) (j : Fin n) : EReal :=
  ((h j - Ideal.div (∑ k, h k) N)
      * Ideal.rsqrt (Ideal.div (∑ k, (h k - Ideal.div (∑ k, h k) N) * (h k - Ideal.div (∑ k, h k) N)) N + eps))
    * s j + b j

/-- A dense layer: the row against a matrix whose entries are given (already thresholded). -/
def dense {k n : ℕ} (a : Fin k → EReal) (W : Fin k → Fin n → EReal) (j : Fin n) : EReal := ∑ l, a l * W l j

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.NormThreshold

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKernelLayers.lean ====
/-
  The vector idioms of the kernel body, read at an entry over the extended reals; generic in the extents.

  * the threshold: compare with zero, widen the bit to a 32-bit integer, convert it signed to a float, round to bf16 —
    at an entry, 1 where the operand is positive and 0 elsewhere;
  * a matrix product into the zero splat: at (p, q) the inner product of row p with column q;
  * the layer normalisation of an [a, b] block along its rows, with scale and bias given as [1, b] rows: the row sums
    are taken by a lane reduction kept as an [a, 1] column, the mean and the reciprocal standard deviation are columns
    broadcast back over the row.  At (p, j) it is the normalisation of row p read at j.  The first row sum enters as a
    column of its own, because the last layer receives it already computed.
-/
import Idealize.ShloMosaic.PureOps.Ideal.Laws
import Idealize.ShloMosaic.Lib.ValueIdx
import Idealize.ShloMosaic.Lib.ValueLayout
import Idealize.ShloMosaic.Lib.Pipeline.Value
import proofs.«113374_j10136122818966_2_alg».proof.Proof.LibNormThreshold
import proofs.«113374_j10136122818966_2_alg».proof.Proof.LibKeepdims
import proofs.«113374_j10136122818966_2_alg».proof.Proof.LibMatmulNN

noncomputable section

namespace Cert.KLayers

open Idealize.ShloMosaic Idealize.ShloMosaic.ValueIdx Cert.NormThreshold

variable {a b : ℕ}

/-! ## The threshold -/

def kAct (v z : FVec Ideal ⟨2, ![a, b]⟩ .f32) (h32 : 1 < 32) (hbf : FTy.bits .bf16 < FTy.bits .f32) :
    FVec Ideal ⟨2, ![a, b]⟩ .bf16 :=
  truncf .bf16 (sitofp .f32 (extui 32 (cmpf .ogt v z) h32)) hbf

theorem kAct_apply (v z : FVec Ideal ⟨2, ![a, b]⟩ .f32) (h32 : 1 < 32) (hbf : FTy.bits .bf16 < FTy.bits .f32)
    (p : Fin a) (j : Fin b) (hz : z (ix2 p j) = Ideal.ofBits .f32 0x00000000#32) :
    kAct v z h32 hbf (ix2 p j) = hard (v (ix2 p j)) := by
  show ((((Ideal.cmp .ogt (v (ix2 p j)) (z (ix2 p j))).setWidth 32).toInt : ℝ) : EReal) = _
  rw [hz, bit_signed_eq_unsigned]; rfl

/-! ## A matrix product into zeros -/

def kMM {M K N : ℕ} (D : DotDims ⟨2, ![M, K]⟩ ⟨2, ![K, N]⟩ ⟨2, ![M, N]⟩)
    (hs : (⟨2, ![K, N]⟩ : Shape).ShapeCasts ⟨2, ![K, N]⟩)
    (l : FVec Ideal ⟨2, ![M, K]⟩ .bf16) (r : FVec Ideal ⟨2, ![K, N]⟩ .bf16) : FVec Ideal ⟨2, ![M, N]⟩ .f32 :=
  matmul D none l (shapeCast ⟨2, ![K, N]⟩ r hs) (constant ⟨2, ![M, N]⟩ .f32 0x00000000#32)

theorem kMM_apply {M K N : ℕ} (D : DotDims ⟨2, ![M, K]⟩ ⟨2, ![K, N]⟩ ⟨2, ![M, N]⟩) (hD : D = DotDims.plain M K N)
    (hs : (⟨2, ![K, N]⟩ : Shape).ShapeCasts ⟨2, ![K, N]⟩)
    (l : FVec Ideal ⟨2, ![M, K]⟩ .bf16) (r : FVec Ideal ⟨2, ![K, N]⟩ .bf16) (p : Fin M) (q : Fin N) :
    kMM D hs l r (ix2 p q) = ∑ k : Fin K, l (ix2 p k) * r (ix2 k q) := by
  unfold kMM
  rw [shapeCast_self]
  exact Cert.MatmulNN.matmul_zero_apply D hD none l r p q

/-! ## Row sums kept as a column -/

def sumCol (hr : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (g : FVec Ideal ⟨2, ![a, b]⟩ .f32) :
    FVec Ideal ⟨2, ![a, 1]⟩ .f32 :=
  shapeCast ⟨2, ![a, 1]⟩ (multiReduction .add [1] ⟨1, ![a]⟩ g 0x00000000#32 hr hφ hacc) hsc

theorem sumCol_apply (hr : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (g : FVec Ideal ⟨2, ![a, b]⟩ .f32) (p : Fin a) (u : Fin 1) :
    sumCol hr hφ hacc hsc g (ix2 p u) = ∑ k : Fin b, g (ix2 p k) := by
  unfold sumCol
  rw [Cert.Keepdims.shapeCast_a_a1_apply, Ideal.multiReduction_add_single]
  exact Finset.sum_congr rfl fun k _ => congrArg g (Cert.Keepdims.lift_row hr p k)

/-! ## The layer normalisation -/

/-- The row mean as a column, broadcast back over the rows. -/
def meanB (Nb : BitVec 32) (hb : (⟨2, ![a, 1]⟩ : Shape).Broadcasts ⟨2, ![a, b]⟩)
    (sumcol : FVec Ideal ⟨2, ![a, 1]⟩ .f32) : FVec Ideal ⟨2, ![a, b]⟩ .f32 :=
  broadcastTo ⟨2, ![a, b]⟩ (divf sumcol (broadcast ⟨2, ![a, 1]⟩ (Scalar.ofBits (F := Ideal) .f32 Nb))) hb

/-- The reciprocal standard deviation as a column, broadcast back. -/
def rstdB (Nb eb : BitVec 32) (hr : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (hb : (⟨2, ![a, 1]⟩ : Shape).Broadcasts ⟨2, ![a, b]⟩)
    (sumcol : FVec Ideal ⟨2, ![a, 1]⟩ .f32) (h : FVec Ideal ⟨2, ![a, b]⟩ .f32) : FVec Ideal ⟨2, ![a, b]⟩ .f32 :=
  broadcastTo ⟨2, ![a, b]⟩
    (rsqrt (addf (divf (sumCol hr hφ hacc hsc (mulf (subf h (meanB Nb hb sumcol)) (subf h (meanB Nb hb sumcol))))
                       (broadcast ⟨2, ![a, 1]⟩ (Scalar.ofBits (F := Ideal) .f32 Nb)))
                 (broadcast ⟨2, ![a, 1]⟩ (Scalar.ofBits (F := Ideal) .f32 eb)))) hb

/-- A [1, b] row over every row of the block. -/
def rowB (hs1 : (⟨2, ![1, b]⟩ : Shape).ShapeCasts ⟨2, ![1, b]⟩) (hb1 : (⟨2, ![1, b]⟩ : Shape).Broadcasts ⟨2, ![a, b]⟩)
    (s : FVec Ideal ⟨2, ![1, b]⟩ .f32) : FVec Ideal ⟨2, ![a, b]⟩ .f32 :=
  broadcastTo ⟨2, ![a, b]⟩ (shapeCast ⟨2, ![1, b]⟩ s hs1) hb1

def kLNc (Nb eb : BitVec 32) (hr : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (hb : (⟨2, ![a, 1]⟩ : Shape).Broadcasts ⟨2, ![a, b]⟩)
    (hs1 : (⟨2, ![1, b]⟩ : Shape).ShapeCasts ⟨2, ![1, b]⟩) (hb1 : (⟨2, ![1, b]⟩ : Shape).Broadcasts ⟨2, ![a, b]⟩)
    (sumcol : FVec Ideal ⟨2, ![a, 1]⟩ .f32) (h : FVec Ideal ⟨2, ![a, b]⟩ .f32) (s bb : FVec Ideal ⟨2, ![1, b]⟩ .f32) :
    FVec Ideal ⟨2, ![a, b]⟩ .f32 :=
  addf (mulf (mulf (subf h (meanB Nb hb sumcol)) (rstdB Nb eb hr hφ hacc hsc hb sumcol h)) (rowB hs1 hb1 s)) (rowB hs1 hb1 bb)

theorem kLNc_apply (Nb eb : BitVec 32) (hr : (⟨2, ![a, b]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (hb : (⟨2, ![a, 1]⟩ : Shape).Broadcasts ⟨2, ![a, b]⟩)
    (hs1 : (⟨2, ![1, b]⟩ : Shape).ShapeCasts ⟨2, ![1, b]⟩) (hb1 : (⟨2, ![1, b]⟩ : Shape).Broadcasts ⟨2, ![a, b]⟩)
    (sumcol : FVec Ideal ⟨2, ![a, 1]⟩ .f32) (h : FVec Ideal ⟨2, ![a, b]⟩ .f32) (s bb : FVec Ideal ⟨2, ![1, b]⟩ .f32)
    (p : Fin a) (j : Fin b) (hsum : sumcol (ix2 p (0 : Fin 1)) = ∑ k : Fin b, h (ix2 p k)) :
    kLNc Nb eb hr hφ hacc hsc hb hs1 hb1 sumcol h s bb (ix2 p j)
      = lnRow (Ideal.ofBits .f32 Nb) (Ideal.ofBits .f32 eb) (fun k => h (ix2 p k))
          (fun k => s (ix2 (0 : Fin 1) k)) (fun k => bb (ix2 (0 : Fin 1) k)) j := by
  have hmean : ∀ c : Fin b, meanB Nb hb sumcol (ix2 p c)
      = Ideal.div (∑ k : Fin b, h (ix2 p k)) (Ideal.ofBits .f32 Nb) := fun c => by
    unfold meanB
    rw [Cert.Keepdims.broadcastTo_a1_ab_apply]
    show Ideal.div (sumcol (ix2 p (0 : Fin 1))) _ = _
    rw [hsum]; rfl
  have hrstd : rstdB Nb eb hr hφ hacc hsc hb sumcol h (ix2 p j)
      = Ideal.rsqrt (Ideal.div (∑ k : Fin b, (h (ix2 p k) - Ideal.div (∑ k : Fin b, h (ix2 p k)) (Ideal.ofBits .f32 Nb))
            * (h (ix2 p k) - Ideal.div (∑ k : Fin b, h (ix2 p k)) (Ideal.ofBits .f32 Nb))) (Ideal.ofBits .f32 Nb)
          + Ideal.ofBits .f32 eb) := by
    unfold rstdB
    rw [Cert.Keepdims.broadcastTo_a1_ab_apply]
    show Ideal.rsqrt (Ideal.div (sumCol hr hφ hacc hsc _ (ix2 p (0 : Fin 1))) (Ideal.ofBits .f32 Nb) + Ideal.ofBits .f32 eb) = _
    rw [sumCol_apply]
    refine congrArg (fun t => Ideal.rsqrt (Ideal.div t (Ideal.ofBits .f32 Nb) + Ideal.ofBits .f32 eb))
      (Finset.sum_congr rfl fun k _ => ?_)
    show (h (ix2 p k) - meanB Nb hb sumcol (ix2 p k)) * (h (ix2 p k) - meanB Nb hb sumcol (ix2 p k)) = _
    rw [hmean k]
  have hrow : ∀ t : FVec Ideal ⟨2, ![1, b]⟩ .f32, rowB (a := a) hs1 hb1 t (ix2 p j) = t (ix2 (0 : Fin 1) j) := fun t => by
    unfold rowB
    rw [broadcastTo_1b_ab_apply, shapeCast_self]
  show ((h (ix2 p j) - meanB Nb hb sumcol (ix2 p j)) * rstdB Nb eb hr hφ hacc hsc hb sumcol h (ix2 p j))
      * rowB hs1 hb1 s (ix2 p j) + rowB hs1 hb1 bb (ix2 p j) = _
  rw [hmean j, hrstd, hrow s, hrow bb]
  rfl

end Cert.KLayers

end
-- ==== Proof.NetSpec.lean ====
/-
  A binarized multilayer perceptron, row by row, over the extended reals: its first layer in two forms, and the rest.

  One row x of the input goes through four dense layers whose weights are thresholded; between them a layer normalisation
  followed by the threshold.  The first layer sees the row doubled to (x, 1 - x) against a weight matrix with two halves
  A (rows 0..783) and B (rows 784..1567).  Its plain form is   sum_k x_k A_k + sum_k (1 - x_k) B_k ;   the folded form is
      (sum_k x_k (A_k - B_k) + sum_k (x_k - x_k) (A_k - B_k)) + (0 + sum_k B_k),
  whose middle sum vanishes for a real row.  For a real row the two forms agree, by distributivity (which fails at the
  infinities: this is where finiteness of x is used).
-/
import proofs.«113374_j10136122818966_2_alg».proof.Proof.LibNormThreshold

noncomputable section

namespace Cert.BinNet

open Idealize.ShloMosaic Cert.NormThreshold

/-- Everything after the first dense layer: normalise, threshold, dense — three times, the last without a normalisation
    after it.  The divisors 2048, 1024, 512 and the epsilon are the programs' own literals. -/
def tail (h1 : Fin 2048 → EReal) (s1 b1 : Fin 2048 → EReal) (W2 : Fin 2048 → Fin 1024 → EReal)
    (s2 b2 : Fin 1024 → EReal) (W3 : Fin 1024 → Fin 512 → EReal) (s3 b3 : Fin 512 → EReal)
    (W4 : Fin 512 → Fin 10 → EReal) (q : Fin 10) : EReal :=
  dense (fun k => hard (lnRow (Ideal.ofBits .f32 0x44000000#32) (Ideal.ofBits .f32 0x358637BD#32)
      (dense (fun k => hard (lnRow (Ideal.ofBits .f32 0x44800000#32) (Ideal.ofBits .f32 0x358637BD#32)
          (dense (fun k => hard (lnRow (Ideal.ofBits .f32 0x45000000#32) (Ideal.ofBits .f32 0x358637BD#32) h1 s1 b1 k)) W2)
          s2 b2 k)) W3)
      s3 b3 k)) W4 q

/-! ## The first layer, folded and plain -/

/-- Row k of the upper half of a 1568-row matrix. -/
abbrev lo (k : Fin 784) : Fin 1568 := ⟨k.val, by omega⟩
/-- Row k of the lower half. -/
abbrev hi (k : Fin 784) : Fin 1568 := ⟨784 + k.val, by omega⟩

/-- The folded first layer, as the kernel computes it. -/
def h1K (xr : Fin 784 → EReal) (W1 : Fin 1568 → Fin 2048 → EReal) (j : Fin 2048) : EReal :=
  ((∑ k : Fin 784, xr k * (hard (W1 (lo k) j) - hard (W1 (hi k) j)))
      + (∑ k : Fin 784, (xr k - xr k) * (hard (W1 (lo k) j) - hard (W1 (hi k) j))))
    + (Ideal.ofBits .f32 0x00000000#32 + ∑ k : Fin 784, hard (W1 (hi k) j))

/-- The plain first layer: the row doubled to (x, 1 - x) against the whole thresholded matrix, the two halves summed
    apart. -/
def h1R (xr : Fin 784 → EReal) (W1 : Fin 1568 → Fin 2048 → EReal) (j : Fin 2048) : EReal :=
  (∑ k : Fin 784, xr k * hard (W1 (lo k) j))
    + ∑ k : Fin 784, (Ideal.ofBits .f32 0x3F800000#32 - xr k) * hard (W1 (hi k) j)

/-- For a real row the folded and the plain first layer agree. -/
theorem h1K_eq_h1R (xr : Fin 784 → EReal) (hx : ∀ k, ∃ r : ℝ, xr k = (r : EReal)) (W1 : Fin 1568 → Fin 2048 → EReal)
    (j : Fin 2048) : h1K xr W1 j = h1R xr W1 j := by
  choose x hx using hx
  have hxr : xr = fun k => (x k : EReal) := funext hx
  subst hxr
  unfold h1K h1R
  rw [ofBits_zero, ofBits_one]
  set A : Fin 784 → ℝ := fun k => ((Ideal.cmp .ogt (W1 (lo k) j) (Ideal.ofBits .f32 0x00000000#32)).toNat : ℝ) with hA
  set B : Fin 784 → ℝ := fun k => ((Ideal.cmp .ogt (W1 (hi k) j) (Ideal.ofBits .f32 0x00000000#32)).toNat : ℝ) with hB
  have e1 : ∀ k, hard (W1 (lo k) j) = (A k : EReal) := fun _ => rfl
  have e2 : ∀ k, hard (W1 (hi k) j) = (B k : EReal) := fun _ => rfl
  simp only [e1, e2]
  have : ((((∑ k, x k * (A k - B k)) + ∑ k, (x k - x k) * (A k - B k)) + (0 + ∑ k, B k) : ℝ) : EReal)
      = (((∑ k, x k * A k) + ∑ k, (1 - x k) * B k : ℝ) : EReal) := by
    congr 1
    simp only [sub_self, zero_mul, Finset.sum_const_zero, add_zero, zero_add, mul_sub, sub_mul, one_mul,
      Finset.sum_sub_distrib]
    ring
  simpa only [EReal.coe_add, EReal.coe_sub, EReal.coe_mul, coe_sum, EReal.coe_zero, EReal.coe_one] using this

end Cert.BinNet

end
-- ==== Proof.KernelBody.lean ====
/-
  The kernel body at one grid point, read at an entry of its output block.

  The body's five pure payloads are, by unfolding, the generic idioms applied to the loaded blocks: the first is the
  folded first dense layer followed by a layer normalisation, the fourth a threshold, a product, a normalisation, a
  threshold and a product, the fifth the row sums of the fourth, and the first-numbered one (which feeds the store) the
  last normalisation, threshold and product.  Composed, entry (p, q) of the stored block is the three-layer tail of the
  network applied to row p of the first layer's output, with the loaded weight blocks as the (already thresholded)
  matrices and the loaded [1, n] rows as scales and biases.
-/
import proofs.«113374_j10136122818966_2_alg».proof.Proof.Gen.KernelIdeal.Skeleton
import proofs.«113374_j10136122818966_2_alg».proof.Proof.LibKernelLayers
import proofs.«113374_j10136122818966_2_alg».proof.Proof.NetSpec

noncomputable section

namespace Cert.KernelIdeal.Body

open Idealize.ShloMosaic Idealize.ShloMosaic.ValueIdx Cert.BinNet Cert.KLayers Cert.NormThreshold
open Cert.KernelIdeal Cert.KernelIdeal.Gen

/-- f32 is a format the lane sum is defined at, and the zero word is the sum's neutral accumulator. -/
theorem fmt32 : FKind.Formats .f32 := .inl rfl
theorem acc0 : (0x00000000#32 : BitVec 32) = FKind.add.neutral .f32 fmt32 := rfl

/-! ## The first layer of a block -/

/-- The folded first layer on a block: x against the difference matrix, the (vanishing) low part against it too, plus the
    column sums as a row. -/
def kH1 (x0 : FVec Ideal S512x784 .f32) (x1 : FVec Ideal S784x2048 .bf16) (x2 : FVec Ideal S1x2048 .f32) :
    FVec Ideal S512x2048 .f32 :=
  addf (addf (kMM dot_S512x784_S784x2048_S512x2048_1_0_0_1_n_n shapeCasts_S784x2048_S784x2048 (truncf .bf16 x0 bitsLt_bf16_f32) x1)
             (kMM dot_S512x784_S784x2048_S512x2048_1_0_0_1_n_n shapeCasts_S784x2048_S784x2048 (truncf .bf16 (subf x0 x0) bitsLt_bf16_f32) x1))
       (rowB shapeCasts_S1x2048_S1x2048 broadcasts_S1x2048_S512x2048 x2)

/-- Row p of the first layer of a block, at column j. -/
def h1blk (x0 : FVec Ideal S512x784 .f32) (x1 : FVec Ideal S784x2048 .bf16) (x2 : FVec Ideal S1x2048 .f32)
    (p : Fin 512) (j : Fin 2048) : EReal :=
  ((∑ k : Fin 784, x0 (ix2 p k) * x1 (ix2 k j)) + (∑ k : Fin 784, (x0 (ix2 p k) - x0 (ix2 p k)) * x1 (ix2 k j)))
    + x2 (ix2 (0 : Fin 1) j)

theorem kH1_apply (x0 : FVec Ideal S512x784 .f32) (x1 : FVec Ideal S784x2048 .bf16) (x2 : FVec Ideal S1x2048 .f32)
    (p : Fin 512) (j : Fin 2048) : kH1 x0 x1 x2 (ix2 p j) = h1blk x0 x1 x2 p j := by
  show (kMM _ _ _ x1 (ix2 p j) + kMM _ _ _ x1 (ix2 p j)) + rowB _ _ x2 (ix2 p j) = _
  rw [kMM_apply dot_S512x784_S784x2048_S512x2048_1_0_0_1_n_n rfl, kMM_apply dot_S512x784_S784x2048_S512x2048_1_0_0_1_n_n rfl]
  unfold rowB
  rw [broadcastTo_1b_ab_apply, shapeCast_self]
  rfl

/-! ## The payloads are the idioms -/

theorem pay2_eq (x0 : Vec Ideal S512x784 .f32) (x1 : Vec Ideal S784x2048 .bf16) (x2 x6 x7 : Vec Ideal S1x2048 .f32) :
    k0_pay2 x0 x1 x2 x6 x7
      = kLNc 0x45000000#32 0x358637BD#32 reduces_S512x2048_S512 fmt32 acc0 shapeCasts_S512_S512x1
          broadcasts_S512x1_S512x2048 shapeCasts_S1x2048_S1x2048 broadcasts_S1x2048_S512x2048
          (sumCol reduces_S512x2048_S512 fmt32 acc0 shapeCasts_S512_S512x1 (kH1 x0 x1 x2)) (kH1 x0 x1 x2) x6 x7 := rfl

theorem pay4_eq (v39 v40 : FVec Ideal S512x2048 .f32) (x3 : Vec Ideal S2048x1024 .bf16) (x8 x9 : Vec Ideal S1x1024 .f32)
    (x4 : Vec Ideal S1024x512 .bf16) :
    k0_pay4 v39 v40 x3 x8 x9 x4
      = kMM dot_S512x1024_S1024x512_S512x512_1_0_0_1_n_n shapeCasts_S1024x512_S1024x512
          (kAct (kLNc 0x44800000#32 0x358637BD#32 reduces_S512x1024_S512 fmt32 acc0 shapeCasts_S512_S512x1
              broadcasts_S512x1_S512x1024 shapeCasts_S1x1024_S1x1024 broadcasts_S1x1024_S512x1024
              (sumCol reduces_S512x1024_S512 fmt32 acc0 shapeCasts_S512_S512x1
                (kMM dot_S512x2048_S2048x1024_S512x1024_1_0_0_1_n_n shapeCasts_S2048x1024_S2048x1024
                  (kAct v39 v40 natLt_1_32 bitsLt_bf16_f32) x3))
              (kMM dot_S512x2048_S2048x1024_S512x1024_1_0_0_1_n_n shapeCasts_S2048x1024_S2048x1024
                (kAct v39 v40 natLt_1_32 bitsLt_bf16_f32) x3) x8 x9)
            (broadcast S512x1024 (Scalar.ofBits (F := Ideal) .f32 0x00000000#32)) natLt_1_32 bitsLt_bf16_f32) x4 := rfl

theorem pay5_eq (v39 v40 : FVec Ideal S512x2048 .f32) (x3 : Vec Ideal S2048x1024 .bf16) (x8 x9 : Vec Ideal S1x1024 .f32)
    (x4 : Vec Ideal S1024x512 .bf16) :
    k0_pay5 v39 v40 x3 x8 x9 x4
      = sumCol reduces_S512x512_S512 fmt32 acc0 shapeCasts_S512_S512x1 (k0_pay4 v39 v40 x3 x8 x9 x4) := rfl

theorem pay1_eq (v81 : FVec Ideal S512x512 .f32) (v83 : FVec Ideal S512x1 .f32) (x10 x11 : Vec Ideal S1x512 .f32)
    (x5 : Vec Ideal S512x10 .bf16) :
    k0_pay1 v81 v83 x10 x11 x5
      = kMM dot_S512x512_S512x10_S512x10_1_0_0_1_n_n shapeCasts_S512x10_S512x10
          (kAct (kLNc 0x44000000#32 0x358637BD#32 reduces_S512x512_S512 fmt32 acc0 shapeCasts_S512_S512x1
              broadcasts_S512x1_S512x512 shapeCasts_S1x512_S1x512 broadcasts_S1x512_S512x512 v83 v81 x10 x11)
            (broadcast S512x512 (Scalar.ofBits (F := Ideal) .f32 0x00000000#32)) natLt_1_32 bitsLt_bf16_f32) x5 := rfl

/-! ## The stored block at an entry -/

/-- A [k, n] block as a matrix of its entries. -/
abbrev mat {k n : ℕ} (x : (⟨2, ![k, n]⟩ : Shape).Idx → EReal) : Fin k → Fin n → EReal := fun l j => x (ix2 l j)
/-- A [1, n] block as the row of its entries. -/
abbrev row {n : ℕ} (x : (⟨2, ![1, n]⟩ : Shape).Idx → EReal) : Fin n → EReal := fun j => x (ix2 (0 : Fin 1) j)

/-- Entry (p, q) of what the body stores, from the twelve loaded blocks. -/
theorem stored_apply (x0 : Vec Ideal S512x784 .f32) (x1 : Vec Ideal S784x2048 .bf16) (x2 : Vec Ideal S1x2048 .f32)
    (x3 : Vec Ideal S2048x1024 .bf16) (x4 : Vec Ideal S1024x512 .bf16) (x5 : Vec Ideal S512x10 .bf16)
    (x6 x7 : Vec Ideal S1x2048 .f32) (x8 x9 : Vec Ideal S1x1024 .f32) (x10 x11 : Vec Ideal S1x512 .f32)
    (p : Fin 512) (q : Fin 10) :
    k0_pay1 (k0_pay4 (k0_pay2 x0 x1 x2 x6 x7) (k0_pay3 (F := Ideal)) x3 x8 x9 x4)
        (k0_pay5 (k0_pay2 x0 x1 x2 x6 x7) (k0_pay3 (F := Ideal)) x3 x8 x9 x4) x10 x11 x5 (ix2 p q)
      = tail (h1blk x0 x1 x2 p) (row x6) (row x7) (mat x3) (row x8) (row x9) (mat x4) (row x10) (row x11) (mat x5) q := by
  -- the first normalised layer at an entry
  have hL1 : ∀ k : Fin 2048, k0_pay2 x0 x1 x2 x6 x7 (ix2 p k)
      = lnRow (Ideal.ofBits .f32 0x45000000#32) (Ideal.ofBits .f32 0x358637BD#32) (h1blk x0 x1 x2 p) (row x6) (row x7) k := fun k => by
    rw [pay2_eq]
    refine (kLNc_apply _ _ _ _ _ _ _ _ _ _ _ _ _ p k (sumCol_apply _ _ _ _ _ p 0)).trans ?_
    exact congrArg (fun f => lnRow _ _ f (row x6) (row x7) k) (funext fun k' => kH1_apply x0 x1 x2 p k')
  -- the second dense layer at an entry
  have hD2 : ∀ l : Fin 1024, kMM dot_S512x2048_S2048x1024_S512x1024_1_0_0_1_n_n shapeCasts_S2048x1024_S2048x1024
        (kAct (k0_pay2 x0 x1 x2 x6 x7) (k0_pay3 (F := Ideal)) natLt_1_32 bitsLt_bf16_f32) x3 (ix2 p l)
      = dense (fun k => hard (lnRow (Ideal.ofBits .f32 0x45000000#32) (Ideal.ofBits .f32 0x358637BD#32) (h1blk x0 x1 x2 p) (row x6) (row x7) k)) (mat x3) l := fun l => by
    refine (kMM_apply dot_S512x2048_S2048x1024_S512x1024_1_0_0_1_n_n rfl _ _ _ p l).trans ?_
    refine Finset.sum_congr rfl fun k _ => ?_
    rw [kAct_apply _ _ _ _ p k rfl, hL1 k]
  -- the third dense layer at an entry
  have hD3 : ∀ l : Fin 512, k0_pay4 (k0_pay2 x0 x1 x2 x6 x7) (k0_pay3 (F := Ideal)) x3 x8 x9 x4 (ix2 p l)
      = dense (fun k => hard (lnRow (Ideal.ofBits .f32 0x44800000#32) (Ideal.ofBits .f32 0x358637BD#32)
          (dense (fun k => hard (lnRow (Ideal.ofBits .f32 0x45000000#32) (Ideal.ofBits .f32 0x358637BD#32) (h1blk x0 x1 x2 p) (row x6) (row x7) k)) (mat x3))
          (row x8) (row x9) k)) (mat x4) l := fun l => by
    rw [pay4_eq]
    refine (kMM_apply dot_S512x1024_S1024x512_S512x512_1_0_0_1_n_n rfl _ _ _ p l).trans ?_
    refine Finset.sum_congr rfl fun k _ => ?_
    rw [kAct_apply _ _ _ _ p k rfl]
    refine congrArg (fun t => hard t * x4 (ix2 k l)) ?_
    refine (kLNc_apply _ _ _ _ _ _ _ _ _ _ _ _ _ p k (sumCol_apply _ _ _ _ _ p 0)).trans ?_
    exact congrArg (fun f => lnRow _ _ f (row x8) (row x9) k) (funext hD2)
  rw [pay1_eq]
  refine (kMM_apply dot_S512x512_S512x10_S512x10_1_0_0_1_n_n rfl _ _ _ p q).trans ?_
  unfold tail
  refine Finset.sum_congr rfl fun k _ => ?_
  rw [kAct_apply _ _ _ _ p k rfl]
  refine congrArg (fun t => hard t * x5 (ix2 k q)) ?_
  refine (kLNc_apply _ _ _ _ _ _ _ _ _ _ _ _ _ p k (by rw [pay5_eq]; exact sumCol_apply _ _ _ _ _ p 0)).trans ?_
  exact congrArg (fun f => lnRow _ _ f (row x10) (row x11) k) (funext hD3)

end Cert.KernelIdeal.Body

end
-- ==== Proof.LibHostLayers.lean ====
/-
  Host (StableHLO) idioms read at an entry over the extended reals; generic in the extents.

  * a scalar constant broadcast to any shape reads the constant's value;
  * the four layouts a keepdims reduction and a per-feature scale need: a vector as a column, a vector as a row, a column
    over the columns of a matrix, a row over its rows;
  * a float sum along the rows, or along the columns, of a matrix: the initial value plus the sum of the entries;
  * the hard threshold  convert(compare GT x, 0);
  * a straight-through estimator  s + (hard(w) - s)  with  s = 1 / (1 + exp(-z))  is  hard(w)  entry by entry;
  * the reference's layer normalisation of an [a, b] matrix along its rows with [b] scale and bias.
-/
import Idealize.ShloMosaic.PureOps.Ideal.Laws
import Idealize.ShloMosaic.Lib.ValueIdx
import Idealize.ShloMosaic.Lib.IdealHost
import Idealize.ShloMosaic.Lib.Pipeline.Value
import proofs.«113374_j10136122818966_2_alg».proof.Proof.LibNormThreshold
import proofs.«113374_j10136122818966_2_alg».proof.Proof.LibKeepdims

noncomputable section

namespace Cert.HLayers

open Idealize.ShloMosaic Idealize.ShloMosaic.ValueIdx Cert.NormThreshold

variable {a b : ℕ}

/-! ## Layouts -/

theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- An [a] vector as an [a, 1] column. -/
theorem colOfVec_apply {α : Type} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A [b] vector as a [1, b] row. -/
theorem rowOfVec_apply {α : Type} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- An [a, 1] column over the columns of an [a, b] matrix. -/
theorem colOver_apply {α : Type} (v : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h v (ix2 r j) = v (ix2 r (0 : Fin 1)) := by
  refine broadcastInDim_apply _ h v (ix2 r j) (ix2 r (0 : Fin 1)) fun ax => ?_
  match ax with
  | ⟨0, _⟩ =>
    show r.val = if a = 1 then 0 else r.val
    split
    · have := r.isLt; omega
    · rfl
  | ⟨1, _⟩ => rfl

/-- A [1, b] row over the rows of an [a, b] matrix. -/
theorem rowOver_apply {α : Type} (v : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h v (ix2 r j) = v (ix2 (0 : Fin 1) j) := by
  refine broadcastInDim_apply _ h v (ix2 r j) (ix2 (0 : Fin 1) j) fun ax => ?_
  match ax with
  | ⟨0, _⟩ => rfl
  | ⟨1, _⟩ =>
    show j.val = if b = 1 then 0 else j.val
    split
    · have := j.isLt; omega
    · rfl

/-! ## Sums -/

/-- The host's sum along the rows. -/
theorem hostRowSum_apply (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init (Shape.Idx.first hu) + ∑ k : Fin b, x (ix2 r k) := by
  rw [hostReduceAdd_apply, Ideal.hostReduceAdd_single h' h]
  exact congrArg (fun t => init (Shape.Idx.first hu) + t)
    (Finset.sum_congr rfl fun k _ => congrArg x (Cert.Keepdims.lift_row h r k))

/-- The reduced index j of an [a, b] array reduced along its columns, with the column position k put back, is (k, j). -/
theorem lift_col (hr : (⟨2, ![a, b]⟩ : Shape).Reduces [0] ⟨1, ![b]⟩) (j : Fin b) (k : Fin a) :
    hr.lift (ix1 j) k = ix2 k j :=
  funext fun c => Fin.ext (by
    match c with
    | ⟨0, _⟩ => rfl
    | ⟨1, _⟩ => rfl)

/-- The host's sum along the columns. -/
theorem hostColSum_apply (x : FVec Ideal ⟨2, ![a, b]⟩ .f32) (init : (⟨0, ![]⟩ : Shape).Idx → Ideal .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (j : Fin b) :
    Host.reduceAdd x init h' hu (ix1 j) = init (Shape.Idx.first hu) + ∑ k : Fin a, x (ix2 k j) := by
  rw [hostReduceAdd_apply, Ideal.hostReduceAdd_single h' h]
  exact congrArg (fun t => init (Shape.Idx.first hu) + t)
    (Finset.sum_congr rfl fun k _ => congrArg x (lift_col h j k))

/-! ## The threshold and the straight-through estimator -/

theorem hardH_apply {T : Shape} {φ : FTy} (h0 : (⟨0, ![]⟩ : Shape).BroadcastsInDim T ![]) (w : FVec Ideal T .f32) (i : T.Idx) :
    (uitofp φ (cmpf .ogt w (broadcastInDim T ![] h0 (constant (F := Ideal) ⟨0, ![]⟩ .f32 0x00000000#32))) : FVec Ideal T φ) i
      = hard (w i) := by
  show (((Ideal.cmp .ogt (w i) (broadcastInDim T ![] h0 (constant (F := Ideal) ⟨0, ![]⟩ .f32 0x00000000#32) i)).toNat : ℝ) : EReal) = _
  rw [splat_apply]; rfl

/-- The logistic soft part, spelt out as the reference does. -/
def soft {T : Shape} (h1 : (⟨0, ![]⟩ : Shape).BroadcastsInDim T ![]) (z : FVec Ideal T .f32) : FVec Ideal T .f32 :=
  Host.divf (broadcastInDim T ![] h1 (constant (F := Ideal) ⟨0, ![]⟩ .f32 0x3F800000#32))
    (addf (broadcastInDim T ![] h1 (constant (F := Ideal) ⟨0, ![]⟩ .f32 0x3F800000#32)) (Host.exp (Host.negf z)))

/-- soft(z) + (hard(w) - soft(z)), entry by entry, is hard(w). -/
theorem ste_apply {T : Shape} (h1 h0 : (⟨0, ![]⟩ : Shape).BroadcastsInDim T ![]) (z w : FVec Ideal T .f32) (i : T.Idx) :
    addf (soft h1 z) (subf (uitofp .f32 (cmpf .ogt w (broadcastInDim T ![] h0 (constant (F := Ideal) ⟨0, ![]⟩ .f32 0x00000000#32))))
      (soft h1 z)) i = hard (w i) := by
  show soft h1 z i + ((uitofp .f32 (cmpf .ogt w (broadcastInDim T ![] h0 (constant (F := Ideal) ⟨0, ![]⟩ .f32 0x00000000#32))) : FVec Ideal T .f32) i
      - soft h1 z i) = _
  rw [hardH_apply]
  have hs : soft h1 z i = Ideal.div (Ideal.ofBits .f32 0x3F800000#32) (Ideal.ofBits .f32 0x3F800000#32 + Ideal.exp (-(z i))) := by
    show Ideal.div (broadcastInDim T ![] h1 (constant (F := Ideal) ⟨0, ![]⟩ .f32 0x3F800000#32) i)
      (broadcastInDim T ![] h1 (constant (F := Ideal) ⟨0, ![]⟩ .f32 0x3F800000#32) i + Ideal.exp (-(z i))) = _
    rw [splat_apply]
  rw [hs]
  exact ste (z i) (w i)

/-! ## The layer normalisation, as the reference spells it -/

/-- The row mean as an [a, 1] column. -/
def hMean (Nb : BitVec 32) (hred' : (⟨2, ![a, b]⟩ : Shape).ReducesTo [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (H : FVec Ideal ⟨2, ![a, b]⟩ .f32) : FVec Ideal ⟨2, ![a, 1]⟩ .f32 :=
  Host.divf (broadcastInDim ⟨2, ![a, 1]⟩ ![0] hc (Host.reduceAdd H (constant (F := Ideal) ⟨0, ![]⟩ .f32 0x00000000#32) hred' hu))
    (broadcastInDim ⟨2, ![a, 1]⟩ ![] hs (constant (F := Ideal) ⟨0, ![]⟩ .f32 Nb))

/-- The centred matrix. -/
def hCen (Nb : BitVec 32) (hred' : (⟨2, ![a, b]⟩ : Shape).ReducesTo [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (hcb : (⟨2, ![a, 1]⟩ : Shape).BroadcastsInDim ⟨2, ![a, b]⟩ ![0, 1])
    (H : FVec Ideal ⟨2, ![a, b]⟩ .f32) : FVec Ideal ⟨2, ![a, b]⟩ .f32 :=
  subf H (broadcastInDim ⟨2, ![a, b]⟩ ![0, 1] hcb (hMean Nb hred' hu hc hs H))

def hLN (Nb eb : BitVec 32) (hred' : (⟨2, ![a, b]⟩ : Shape).ReducesTo [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (hcb : (⟨2, ![a, 1]⟩ : Shape).BroadcastsInDim ⟨2, ![a, b]⟩ ![0, 1])
    (hrv : (⟨1, ![b]⟩ : Shape).BroadcastsInDim ⟨2, ![1, b]⟩ ![1]) (hrb : (⟨2, ![1, b]⟩ : Shape).BroadcastsInDim ⟨2, ![a, b]⟩ ![0, 1])
    (H : FVec Ideal ⟨2, ![a, b]⟩ .f32) (s bb : FVec Ideal ⟨1, ![b]⟩ .f32) : FVec Ideal ⟨2, ![a, b]⟩ .f32 :=
  addf (mulf (mulf (hCen Nb hred' hu hc hs hcb H)
        (broadcastInDim ⟨2, ![a, b]⟩ ![0, 1] hcb (Host.rsqrt (addf
          (Host.divf (broadcastInDim ⟨2, ![a, 1]⟩ ![0] hc (Host.reduceAdd
              (mulf (hCen Nb hred' hu hc hs hcb H) (hCen Nb hred' hu hc hs hcb H))
              (constant (F := Ideal) ⟨0, ![]⟩ .f32 0x00000000#32) hred' hu))
            (broadcastInDim ⟨2, ![a, 1]⟩ ![] hs (constant (F := Ideal) ⟨0, ![]⟩ .f32 Nb)))
          (broadcastInDim ⟨2, ![a, 1]⟩ ![] hs (constant (F := Ideal) ⟨0, ![]⟩ .f32 eb))))))
      (broadcastInDim ⟨2, ![a, b]⟩ ![0, 1] hrb (broadcastInDim ⟨2, ![1, b]⟩ ![1] hrv s)))
    (broadcastInDim ⟨2, ![a, b]⟩ ![0, 1] hrb (broadcastInDim ⟨2, ![1, b]⟩ ![1] hrv bb))

theorem hLN_apply (Nb eb : BitVec 32) (hred' : (⟨2, ![a, b]⟩ : Shape).ReducesTo [1] ⟨1, ![a]⟩)
    (hred : (⟨2, ![a, b]⟩ : Shape).Reduces [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (hcb : (⟨2, ![a, 1]⟩ : Shape).BroadcastsInDim ⟨2, ![a, b]⟩ ![0, 1])
    (hrv : (⟨1, ![b]⟩ : Shape).BroadcastsInDim ⟨2, ![1, b]⟩ ![1]) (hrb : (⟨2, ![1, b]⟩ : Shape).BroadcastsInDim ⟨2, ![a, b]⟩ ![0, 1])
    (H : FVec Ideal ⟨2, ![a, b]⟩ .f32) (s bb : FVec Ideal ⟨1, ![b]⟩ .f32) (r : Fin a) (j : Fin b) :
    hLN Nb eb hred' hu hc hs hcb hrv hrb H s bb (ix2 r j)
      = lnRow (Ideal.ofBits .f32 Nb) (Ideal.ofBits .f32 eb) (fun k => H (ix2 r k)) (fun k => s (ix1 k)) (fun k => bb (ix1 k)) j := by
  have hsumz : ∀ (g : FVec Ideal ⟨2, ![a, b]⟩ .f32),
      Host.reduceAdd g (constant (F := Ideal) ⟨0, ![]⟩ .f32 0x00000000#32) hred' hu (ix1 r) = ∑ k : Fin b, g (ix2 r k) := fun g => by
    rw [hostRowSum_apply g _ hred' hred hu r]
    show Ideal.ofBits .f32 0x00000000#32 + _ = _
    rw [ofBits_zero, zero_add]
  have hmean : ∀ u : Fin 1, hMean Nb hred' hu hc hs H (ix2 r u)
      = Ideal.div (∑ k : Fin b, H (ix2 r k)) (Ideal.ofBits .f32 Nb) := fun u => by
    show Ideal.div (broadcastInDim ⟨2, ![a, 1]⟩ ![0] hc (Host.reduceAdd H _ hred' hu) (ix2 r u))
      (broadcastInDim ⟨2, ![a, 1]⟩ ![] hs (constant (F := Ideal) ⟨0, ![]⟩ .f32 Nb) (ix2 r u)) = _
    rw [colOfVec_apply, splat_apply, hsumz]
  have hcen : ∀ c : Fin b, hCen Nb hred' hu hc hs hcb H (ix2 r c)
      = H (ix2 r c) - Ideal.div (∑ k : Fin b, H (ix2 r k)) (Ideal.ofBits .f32 Nb) := fun c => by
    show H (ix2 r c) - broadcastInDim ⟨2, ![a, b]⟩ ![0, 1] hcb (hMean Nb hred' hu hc hs H) (ix2 r c) = _
    rw [colOver_apply, hmean]
  show (hCen Nb hred' hu hc hs hcb H (ix2 r j)
      * broadcastInDim ⟨2, ![a, b]⟩ ![0, 1] hcb (Host.rsqrt (addf
          (Host.divf (broadcastInDim ⟨2, ![a, 1]⟩ ![0] hc (Host.reduceAdd
              (mulf (hCen Nb hred' hu hc hs hcb H) (hCen Nb hred' hu hc hs hcb H))
              (constant (F := Ideal) ⟨0, ![]⟩ .f32 0x00000000#32) hred' hu))
            (broadcastInDim ⟨2, ![a, 1]⟩ ![] hs (constant (F := Ideal) ⟨0, ![]⟩ .f32 Nb)))
          (broadcastInDim ⟨2, ![a, 1]⟩ ![] hs (constant (F := Ideal) ⟨0, ![]⟩ .f32 eb)))) (ix2 r j))
      * broadcastInDim ⟨2, ![a, b]⟩ ![0, 1] hrb (broadcastInDim ⟨2, ![1, b]⟩ ![1] hrv s) (ix2 r j)
      + broadcastInDim ⟨2, ![a, b]⟩ ![0, 1] hrb (broadcastInDim ⟨2, ![1, b]⟩ ![1] hrv bb) (ix2 r j) = _
  rw [hcen j, colOver_apply, rowOver_apply, rowOver_apply, rowOfVec_apply, rowOfVec_apply]
  show (_ * Ideal.rsqrt (Ideal.div (broadcastInDim ⟨2, ![a, 1]⟩ ![0] hc (Host.reduceAdd
              (mulf (hCen Nb hred' hu hc hs hcb H) (hCen Nb hred' hu hc hs hcb H)) _ hred' hu) (ix2 r (0 : Fin 1)))
            (broadcastInDim ⟨2, ![a, 1]⟩ ![] hs (constant (F := Ideal) ⟨0, ![]⟩ .f32 Nb) (ix2 r (0 : Fin 1)))
          + broadcastInDim ⟨2, ![a, 1]⟩ ![] hs (constant (F := Ideal) ⟨0, ![]⟩ .f32 eb) (ix2 r (0 : Fin 1)))) * _ + _ = _
  rw [colOfVec_apply, splat_apply, splat_apply, hsumz]
  unfold lnRow
  refine congrArg (fun t => (H (ix2 r j) - Ideal.div (∑ k : Fin b, H (ix2 r k)) (Ideal.ofBits .f32 Nb))
      * Ideal.rsqrt (Ideal.div t (Ideal.ofBits .f32 Nb) + Ideal.ofBits .f32 eb) * s (ix1 j) + bb (ix1 j))
    (Finset.sum_congr rfl fun k _ => ?_)
  show hCen Nb hred' hu hc hs hcb H (ix2 r k) * hCen Nb hred' hu hc hs hcb H (ix2 r k) = _
  rw [hcen k]

end Cert.HLayers

end
-- ==== Proof.KernelHostW.lean ====
/-
  What the kernel's program computes on the host before the pallas_call, read at an entry: the arrays the weight
  windows stage.

  * the first layer's matrix is thresholded, cut into its upper and lower 784 rows, and the two halves subtracted: entry
    (k, j) is  hard(w1[k, j]) - hard(w1[784 + k, j]);
  * the column sums of the lower half, as a [1, 2048] row: entry (·, j) is  0 + sum_k hard(w1[784 + k, j]);
  * the other three matrices are thresholded entry by entry.
-/
import proofs.«113374_j10136122818966_2_alg».proof.Proof.Gen.KernelIdeal.Frame
import Idealize.ShloMosaic.Lib.StableHlo.Run
import Idealize.ShloMosaic.Lib.ValueLayout
import proofs.«113374_j10136122818966_2_alg».proof.Proof.LibHostLayers
import proofs.«113374_j10136122818966_2_alg».proof.Proof.NetSpec

noncomputable section

namespace Cert.KernelIdeal.HostW

open Idealize.ShloMosaic Idealize.ShloMosaic.TcCoe Idealize.SL.Sem Idealize.ShloMosaic.StableHlo Idealize.ShloMosaic.ValueIdx
open Cert.KernelIdeal Cert.KernelIdeal.Gen Cert.BinNet Cert.HLayers Cert.NormThreshold

variable (m : (ℓ : Loc nD τ sig) → Buf (Elt Ideal) ℓ) (c : Dev nD)

/-- The thresholded first matrix, as the host computes it. -/
abbrev H1 : FVec Ideal S1568x2048 .f32 :=
  uitofp (F := Ideal) .f32 (cmpf .ogt (m ((c : Thread nD τ).loc main_arg1) : FVec Ideal S1568x2048 .f32)
    (broadcastInDim S1568x2048 ![] bcast_S_S1568x2048 (constant (F := Ideal) S_ .f32 0x00000000#32)))

theorem v6_apply (k : Fin 784) (j : Fin 2048) :
    (V m c main_v6 : S784x2048.Idx → EReal) (ix2 k j)
      = hard ((m ((c : Thread nD τ).loc main_arg1) : S1568x2048.Idx → EReal) (ix2 (lo k) j))
        - hard ((m ((c : Thread nD τ).loc main_arg1) : S1568x2048.Idx → EReal) (ix2 (hi k) j)) := by
  have e : (V m c main_v6 : S784x2048.Idx → EReal) = truncf .bf16 (subf
      (extractStridedSlice S784x2048 ![0, 0] (H1 m c) slices_S1568x2048_S784x2048_0_0)
      (extractStridedSlice S784x2048 ![784, 0] (H1 m c) slices_S1568x2048_S784x2048_784_0)) bitsLt_bf16_f32 := by
    dsimp only [Gen.V, Gen.hostOps0]; after_results
  rw [e]
  show extractStridedSlice S784x2048 ![0, 0] (H1 m c) slices_S1568x2048_S784x2048_0_0 (ix2 k j)
      - extractStridedSlice S784x2048 ![784, 0] (H1 m c) slices_S1568x2048_S784x2048_784_0 (ix2 k j) = _
  rw [slice2_axis0_apply 0 _ _ k j (lo k) (by show k.val = 0 + k.val; omega),
    slice2_axis0_apply 784 _ _ k j (hi k) rfl]
  exact congrArg₂ (fun s t => s - t) (hardH_apply bcast_S_S1568x2048 _ _) (hardH_apply bcast_S_S1568x2048 _ _)

theorem v8_apply (u : Fin 1) (j : Fin 2048) :
    (V m c main_v8 : S1x2048.Idx → EReal) (ix2 u j)
      = Ideal.ofBits .f32 0x00000000#32
        + ∑ k : Fin 784, hard ((m ((c : Thread nD τ).loc main_arg1) : S1568x2048.Idx → EReal) (ix2 (hi k) j)) := by
  have e : (V m c main_v8 : S1x2048.Idx → EReal) = broadcastInDim S1x2048 ![1] bcast_S2048_S1x2048_1
      (Host.reduceAdd (extractStridedSlice S784x2048 ![784, 0] (H1 m c) slices_S1568x2048_S784x2048_784_0)
        (constant (F := Ideal) S_ .f32 0x00000000#32) reducesTo_S784x2048_S2048_d0 h_S_) := by
    dsimp only [Gen.V, Gen.hostOps0]; after_results
  rw [e, rowOfVec_apply, hostColSum_apply _ _ _ (by decide) _ j]
  refine congrArg (fun t => Ideal.ofBits .f32 0x00000000#32 + t) (Finset.sum_congr rfl fun k _ => ?_)
  rw [slice2_axis0_apply 784 _ _ k j (hi k) rfl]
  exact hardH_apply bcast_S_S1568x2048 _ _

theorem v11_apply (l : Fin 2048) (j : Fin 1024) :
    (V m c main_v11 : S2048x1024.Idx → EReal) (ix2 l j)
      = hard ((m ((c : Thread nD τ).loc main_arg2) : S2048x1024.Idx → EReal) (ix2 l j)) := by
  have e : (V m c main_v11 : S2048x1024.Idx → EReal) = uitofp (F := Ideal) .bf16 (cmpf .ogt (m ((c : Thread nD τ).loc main_arg2) : FVec Ideal S2048x1024 .f32)
      (broadcastInDim S2048x1024 ![] bcast_S_S2048x1024 (constant (F := Ideal) S_ .f32 0x00000000#32))) := by
    dsimp only [Gen.V, Gen.hostOps0]; after_results
  rw [e, hardH_apply]

theorem v14_apply (l : Fin 1024) (j : Fin 512) :
    (V m c main_v14 : S1024x512.Idx → EReal) (ix2 l j)
      = hard ((m ((c : Thread nD τ).loc main_arg3) : S1024x512.Idx → EReal) (ix2 l j)) := by
  have e : (V m c main_v14 : S1024x512.Idx → EReal) = uitofp (F := Ideal) .bf16 (cmpf .ogt (m ((c : Thread nD τ).loc main_arg3) : FVec Ideal S1024x512 .f32)
      (broadcastInDim S1024x512 ![] bcast_S_S1024x512 (constant (F := Ideal) S_ .f32 0x00000000#32))) := by
    dsimp only [Gen.V, Gen.hostOps0]; after_results
  rw [e, hardH_apply]

theorem v17_apply (l : Fin 512) (j : Fin 10) :
    (V m c main_v17 : S512x10.Idx → EReal) (ix2 l j)
      = hard ((m ((c : Thread nD τ).loc main_arg4) : S512x10.Idx → EReal) (ix2 l j)) := by
  have e : (V m c main_v17 : S512x10.Idx → EReal) = uitofp (F := Ideal) .bf16 (cmpf .ogt (m ((c : Thread nD τ).loc main_arg4) : FVec Ideal S512x10 .f32)
      (broadcastInDim S512x10 ![] bcast_S_S512x10 (constant (F := Ideal) S_ .f32 0x00000000#32))) := by
    dsimp only [Gen.V, Gen.hostOps0]; after_results
  rw [e, hardH_apply]

end Cert.KernelIdeal.HostW

end
-- ==== Proof.KernelHostS.lean ====
/-
  What the kernel's program computes on the host before the pallas_call, read at an entry: the six normalisation vectors
  reshaped to [1, n] rows.  Entry (·, j) of a row is entry j of the vector.
-/
import proofs.«113374_j10136122818966_2_alg».proof.Proof.Gen.KernelIdeal.Frame
import Idealize.ShloMosaic.Lib.StableHlo.Run
import Idealize.ShloMosaic.Lib.ValueLayout
import proofs.«113374_j10136122818966_2_alg».proof.Proof.LibHostLayers

noncomputable section

namespace Cert.KernelIdeal.HostS

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (c : Dev nD)

theorem v18_apply (u : Fin 1) (j : Fin 2048) :
    (V m c main_v18 : S1x2048.Idx → EReal) (ix2 u j)
      = (m ((c : Thread nD τ).loc main_arg5) : S2048.Idx → EReal) (ix1 j) := by
  have e : (V m c main_v18 : S1x2048.Idx → EReal)
      = shapeCast S1x2048 (m ((c : Thread nD τ).loc main_arg5) : S2048.Idx → EReal) shapeCasts_S2048_S1x2048 := by
    dsimp only [Gen.V, Gen.hostOps0]; after_results; rfl
  rw [e, shapeCast_a_1a_apply]

theorem v19_apply (u : Fin 1) (j : Fin 2048) :
    (V m c main_v19 : S1x2048.Idx → EReal) (ix2 u j)
      = (m ((c : Thread nD τ).loc main_arg6) : S2048.Idx → EReal) (ix1 j) := by
  have e : (V m c main_v19 : S1x2048.Idx → EReal)
      = shapeCast S1x2048 (m ((c : Thread nD τ).loc main_arg6) : S2048.Idx → EReal) shapeCasts_S2048_S1x2048 := by
    dsimp only [Gen.V, Gen.hostOps0]; after_results; rfl
  rw [e, shapeCast_a_1a_apply]

theorem v20_apply (u : Fin 1) (j : Fin 1024) :
    (V m c main_v20 : S1x1024.Idx → EReal) (ix2 u j)
      = (m ((c : Thread nD τ).loc main_arg7) : S1024.Idx → EReal) (ix1 j) := by
  have e : (V m c main_v20 : S1x1024.Idx → EReal)
      = shapeCast S1x1024 (m ((c : Thread nD τ).loc main_arg7) : S1024.Idx → EReal) shapeCasts_S1024_S1x1024 := by
    dsimp only [Gen.V, Gen.hostOps0]; after_results; rfl
  rw [e, shapeCast_a_1a_apply]

theorem v21_apply (u : Fin 1) (j : Fin 1024) :
    (V m c main_v21 : S1x1024.Idx → EReal) (ix2 u j)
      = (m ((c : Thread nD τ).loc main_arg8) : S1024.Idx → EReal) (ix1 j) := by
  have e : (V m c main_v21 : S1x1024.Idx → EReal)
      = shapeCast S1x1024 (m ((c : Thread nD τ).loc main_arg8) : S1024.Idx → EReal) shapeCasts_S1024_S1x1024 := by
    dsimp only [Gen.V, Gen.hostOps0]; after_results; rfl
  rw [e, shapeCast_a_1a_apply]

theorem v22_apply (u : Fin 1) (j : Fin 512) :
    (V m c main_v22 : S1x512.Idx → EReal) (ix2 u j)
      = (m ((c : Thread nD τ).loc main_arg9) : S512.Idx → EReal) (ix1 j) := by
  have e : (V m c main_v22 : S1x512.Idx → EReal)
      = shapeCast S1x512 (m ((c : Thread nD τ).loc main_arg9) : S512.Idx → EReal) shapeCasts_S512_S1x512 := by
    dsimp only [Gen.V, Gen.hostOps0]; after_results; rfl
  rw [e, shapeCast_a_1a_apply]

theorem v23_apply (u : Fin 1) (j : Fin 512) :
    (V m c main_v23 : S1x512.Idx → EReal) (ix2 u j)
      = (m ((c : Thread nD τ).loc main_arg10) : S512.Idx → EReal) (ix1 j) := by
  have e : (V m c main_v23 : S1x512.Idx → EReal)
      = shapeCast S1x512 (m ((c : Thread nD τ).loc main_arg10) : S512.Idx → EReal) shapeCasts_S512_S1x512 := by
    dsimp only [Gen.V, Gen.hostOps0]; after_results; rfl
  rw [e, shapeCast_a_1a_apply]

end Cert.KernelIdeal.HostS

end
-- ==== Proof.NetArray.lean ====
/-
  The network as ONE function of the argument arrays: entry (r, q) of the [32768, 10] result is the three-layer tail
  applied to the folded first layer of row r of x, with every weight matrix thresholded entry by entry and the six
  normalisation vectors read as they are.
-/
import Idealize.ShloMosaic.Lib.ValueIdx
import proofs.«113374_j10136122818966_2_alg».proof.Proof.NetSpec

noncomputable section

namespace Cert.BinNet

open Idealize.ShloMosaic Idealize.ShloMosaic.ValueIdx Cert.NormThreshold

/-- Row r of the result, at class q. -/
def Grow (x : (⟨2, ![32768, 784]⟩ : Shape).Idx → EReal) (w1 : (⟨2, ![1568, 2048]⟩ : Shape).Idx → EReal)
    (w2 : (⟨2, ![2048, 1024]⟩ : Shape).Idx → EReal) (w3 : (⟨2, ![1024, 512]⟩ : Shape).Idx → EReal)
    (w4 : (⟨2, ![512, 10]⟩ : Shape).Idx → EReal)
    (s1 b1 : (⟨1, ![2048]⟩ : Shape).Idx → EReal) (s2 b2 : (⟨1, ![1024]⟩ : Shape).Idx → EReal)
    (s3 b3 : (⟨1, ![512]⟩ : Shape).Idx → EReal) (r : Fin 32768) (q : Fin 10) : EReal :=
  tail (h1K (fun k => x (ix2 r k)) (fun k j => w1 (ix2 k j)))
    (fun j => s1 (ix1 j)) (fun j => b1 (ix1 j)) (fun l j => hard (w2 (ix2 l j)))
    (fun j => s2 (ix1 j)) (fun j => b2 (ix1 j)) (fun l j => hard (w3 (ix2 l j)))
    (fun j => s3 (ix1 j)) (fun j => b3 (ix1 j)) (fun l j => hard (w4 (ix2 l j))) q

/-- The whole result array. -/
def G (x : (⟨2, ![32768, 784]⟩ : Shape).Idx → EReal) (w1 : (⟨2, ![1568, 2048]⟩ : Shape).Idx → EReal)
    (w2 : (⟨2, ![2048, 1024]⟩ : Shape).Idx → EReal) (w3 : (⟨2, ![1024, 512]⟩ : Shape).Idx → EReal)
    (w4 : (⟨2, ![512, 10]⟩ : Shape).Idx → EReal)
    (s1 b1 : (⟨1, ![2048]⟩ : Shape).Idx → EReal) (s2 b2 : (⟨1, ![1024]⟩ : Shape).Idx → EReal)
    (s3 b3 : (⟨1, ![512]⟩ : Shape).Idx → EReal) : (⟨2, ![32768, 10]⟩ : Shape).Idx → EReal :=
  fun i => Grow x w1 w2 w3 w4 s1 b1 s2 b2 s3 b3 ⟨(i 0).val, idx2_lt0 i⟩ ⟨(i 1).val, idx2_lt1 i⟩

theorem G_apply (x : (⟨2, ![32768, 784]⟩ : Shape).Idx → EReal) (w1 : (⟨2, ![1568, 2048]⟩ : Shape).Idx → EReal)
    (w2 : (⟨2, ![2048, 1024]⟩ : Shape).Idx → EReal) (w3 : (⟨2, ![1024, 512]⟩ : Shape).Idx → EReal)
    (w4 : (⟨2, ![512, 10]⟩ : Shape).Idx → EReal)
    (s1 b1 : (⟨1, ![2048]⟩ : Shape).Idx → EReal) (s2 b2 : (⟨1, ![1024]⟩ : Shape).Idx → EReal)
    (s3 b3 : (⟨1, ![512]⟩ : Shape).Idx → EReal) (r : Fin 32768) (q : Fin 10) :
    G x w1 w2 w3 w4 s1 b1 s2 b2 s3 b3 (ix2 r q) = Grow x w1 w2 w3 w4 s1 b1 s2 b2 s3 b3 r q := rfl

end Cert.BinNet

end
-- ==== Proof.KernelValue.lean ====
/-
  The idealized kernel's result array is the network function G of its arguments.

  The grid has 64 points; point t stages rows 512 t .. 512 t + 511 of x and writes back the same rows of the result,
  while the eleven other windows sit at block 0, which is their whole array.  So the block of x at t, read at (p, k), is
  x at (512 t + p, k), every other block is its array as the host left it, and what point t writes back at (p, q) — the
  body's stored value — is G at (512 t + p, q).  The 64 row bands cover the result, hence the whole array is G.
-/
import proofs.«113374_j10136122818966_2_alg».proof.Proof.Gen.KernelIdeal.Value
import proofs.«113374_j10136122818966_2_alg».proof.Proof.KernelBody
import proofs.«113374_j10136122818966_2_alg».proof.Proof.KernelHostW
import proofs.«113374_j10136122818966_2_alg».proof.Proof.KernelHostS
import proofs.«113374_j10136122818966_2_alg».proof.Proof.NetArray

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Body Cert.BinNet Cert.NormThreshold

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 points -/

theorem idx0 : ∀ t : Fin cfg0.N, win0_0.index t (0 : Fin 2) = win0_12.index t (0 : Fin 2) ∧ win0_0.index t (1 : Fin 2) = 0
    ∧ win0_12.index t (1 : Fin 2) = 0 ∧ win0_12.index t (0 : Fin 2) ≤ 63 :=
  (by decide +kernel : ∀ t : Fin grid0.N, _)
theorem idx_onto : ∀ q0 : Fin 64, ∃ t : Fin cfg0.N, win0_12.index t = ![q0.val, 0] :=
  (by decide +kernel : ∀ q0 : Fin 64, ∃ t : Fin grid0.N, win0_12.index t = ![q0.val, 0])
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

/-! ## The blocks -/

/-- The array row that row p of point t's block is. -/
def rowOf (t : Fin cfg0.N) (p : Fin 512) : Fin 32768 :=
  ⟨win0_12.index t (0 : Fin 2) * 512 + p.val, by have := (idx0 t).2.2.2; have := p.isLt; omega⟩

/-- The block of x at point t, read at (p, k), is x at (512 t + p, k). -/
theorem blk0 (c : Dev nD) (t : Fin cfg0.N) (p : Fin 512) (k : Fin 784) :
    iblk m c 0 t (ix2 p k) = (m ((c : Thread nD τ).loc main_arg0) : S32768x784.Idx → EReal) (ix2 (rowOf t p) k) := by
  show V m c main_arg0 (((cfg0.win 0).blk t).view.emb (ix2 p k)) = _
  rw [V_main_arg0]
  refine congrArg _ (funext fun a => Fin.ext ?_)
  obtain ⟨e0, e1, -, -⟩ := idx0 t
  match a with
  | ⟨0, _⟩ => show win0_0.index t (0 : Fin 2) * 512 + 1 * p.val = win0_12.index t (0 : Fin 2) * 512 + p.val; omega
  | ⟨1, _⟩ => show win0_0.index t (1 : Fin 2) * 784 + 1 * k.val = k.val; omega

/-- Each of the other eleven blocks is its whole array as the region finds it. -/
theorem blk1 (c : Dev nD) (t : Fin cfg0.N) (y : S784x2048.Idx) : iblk m c 1 t y = (V m c main_v6 : S784x2048.Idx → EReal) y := by
  show V m c main_v6 (((cfg0.win 1).blk t).view.emb y) = V m c main_v6 y
  refine congrArg _ (funext fun a => Fin.ext ?_)
  obtain ⟨e0, e1⟩ := idx1 t
  match a with
  | ⟨0, _⟩ => show win0_1.index t (0 : Fin 2) * 784 + 1 * (y 0).val = (y 0).val; omega
  | ⟨1, _⟩ => show win0_1.index t (1 : Fin 2) * 2048 + 1 * (y 1).val = (y 1).val; omega
theorem blk2 (c : Dev nD) (t : Fin cfg0.N) (y : S1x2048.Idx) : iblk m c 2 t y = (V m c main_v8 : S1x2048.Idx → EReal) y := by
  show V m c main_v8 (((cfg0.win 2).blk t).view.emb y) = V m c main_v8 y
  refine congrArg _ (funext fun a => Fin.ext ?_)
  obtain ⟨e0, e1⟩ := idx2 t
  match a with
  | ⟨0, _⟩ => show win0_2.index t (0 : Fin 2) * 1 + 1 * (y 0).val = (y 0).val; omega
  | ⟨1, _⟩ => show win0_2.index t (1 : Fin 2) * 2048 + 1 * (y 1).val = (y 1).val; omega
theorem blk3 (c : Dev nD) (t : Fin cfg0.N) (y : S2048x1024.Idx) : iblk m c 3 t y = (V m c main_v11 : S2048x1024.Idx → EReal) y := by
  show V m c main_v11 (((cfg0.win 3).blk t).view.emb y) = V m c main_v11 y
  refine congrArg _ (funext fun a => Fin.ext ?_)
  obtain ⟨e0, e1⟩ := idx3 t
  match a with
  | ⟨0, _⟩ => show win0_3.index t (0 : Fin 2) * 2048 + 1 * (y 0).val = (y 0).val; omega
  | ⟨1, _⟩ => show win0_3.index t (1 : Fin 2) * 1024 + 1 * (y 1).val = (y 1).val; omega
theorem blk4 (c : Dev nD) (t : Fin cfg0.N) (y : S1024x512.Idx) : iblk m c 4 t y = (V m c main_v14 : S1024x512.Idx → EReal) y := by
  show V m c main_v14 (((cfg0.win 4).blk t).view.emb y) = V m c main_v14 y
  refine congrArg _ (funext fun a => Fin.ext ?_)
  obtain ⟨e0, e1⟩ := idx4 t
  match a with
  | ⟨0, _⟩ => show win0_4.index t (0 : Fin 2) * 1024 + 1 * (y 0).val = (y 0).val; omega
  | ⟨1, _⟩ => show win0_4.index t (1 : Fin 2) * 512 + 1 * (y 1).val = (y 1).val; omega
theorem blk5 (c : Dev nD) (t : Fin cfg0.N) (y : S512x10.Idx) : iblk m c 5 t y = (V m c main_v17 : S512x10.Idx → EReal) y := by
  show V m c main_v17 (((cfg0.win 5).blk t).view.emb y) = V m c main_v17 y
  refine congrArg _ (funext fun a => Fin.ext ?_)
  obtain ⟨e0, e1⟩ := idx5 t
  match a with
  | ⟨0, _⟩ => show win0_5.index t (0 : Fin 2) * 512 + 1 * (y 0).val = (y 0).val; omega
  | ⟨1, _⟩ => show win0_5.index t (1 : Fin 2) * 10 + 1 * (y 1).val = (y 1).val; omega
theorem blk6 (c : Dev nD) (t : Fin cfg0.N) (y : S1x2048.Idx) : iblk m c 6 t y = (V m c main_v18 : S1x2048.Idx → EReal) y := by
  show V m c main_v18 (((cfg0.win 6).blk t).view.emb y) = V m c main_v18 y
  refine congrArg _ (funext fun a => Fin.ext ?_)
  obtain ⟨e0, e1⟩ := idx6 t
  match a with
  | ⟨0, _⟩ => show win0_6.index t (0 : Fin 2) * 1 + 1 * (y 0).val = (y 0).val; omega
  | ⟨1, _⟩ => show win0_6.index t (1 : Fin 2) * 2048 + 1 * (y 1).val = (y 1).val; omega
theorem blk7 (c : Dev nD) (t : Fin cfg0.N) (y : S1x2048.Idx) : iblk m c 7 t y = (V m c main_v19 : S1x2048.Idx → EReal) y := by
  show V m c main_v19 (((cfg0.win 7).blk t).view.emb y) = V m c main_v19 y
  refine congrArg _ (funext fun a => Fin.ext ?_)
  obtain ⟨e0, e1⟩ := idx7 t
  match a with
  | ⟨0, _⟩ => show win0_7.index t (0 : Fin 2) * 1 + 1 * (y 0).val = (y 0).val; omega
  | ⟨1, _⟩ => show win0_7.index t (1 : Fin 2) * 2048 + 1 * (y 1).val = (y 1).val; omega
theorem blk8 (c : Dev nD) (t : Fin cfg0.N) (y : S1x1024.Idx) : iblk m c 8 t y = (V m c main_v20 : S1x1024.Idx → EReal) y := by
  show V m c main_v20 (((cfg0.win 8).blk t).view.emb y) = V m c main_v20 y
  refine congrArg _ (funext fun a => Fin.ext ?_)
  obtain ⟨e0, e1⟩ := idx8 t
  match a with
  | ⟨0, _⟩ => show win0_8.index t (0 : Fin 2) * 1 + 1 * (y 0).val = (y 0).val; omega
  | ⟨1, _⟩ => show win0_8.index t (1 : Fin 2) * 1024 + 1 * (y 1).val = (y 1).val; omega
theorem blk9 (c : Dev nD) (t : Fin cfg0.N) (y : S1x1024.Idx) : iblk m c 9 t y = (V m c main_v21 : S1x1024.Idx → EReal) y := by
  show V m c main_v21 (((cfg0.win 9).blk t).view.emb y) = V m c main_v21 y
  refine congrArg _ (funext fun a => Fin.ext ?_)
  obtain ⟨e0, e1⟩ := idx9 t
  match a with
  | ⟨0, _⟩ => show win0_9.index t (0 : Fin 2) * 1 + 1 * (y 0).val = (y 0).val; omega
  | ⟨1, _⟩ => show win0_9.index t (1 : Fin 2) * 1024 + 1 * (y 1).val = (y 1).val; omega
theorem blk10 (c : Dev nD) (t : Fin cfg0.N) (y : S1x512.Idx) : iblk m c 10 t y = (V m c main_v22 : S1x512.Idx → EReal) y := by
  show V m c main_v22 (((cfg0.win 10).blk t).view.emb y) = V m c main_v22 y
  refine congrArg _ (funext fun a => Fin.ext ?_)
  obtain ⟨e0, e1⟩ := idx10 t
  match a with
  | ⟨0, _⟩ => show win0_10.index t (0 : Fin 2) * 1 + 1 * (y 0).val = (y 0).val; omega
  | ⟨1, _⟩ => show win0_10.index t (1 : Fin 2) * 512 + 1 * (y 1).val = (y 1).val; omega
theorem blk11 (c : Dev nD) (t : Fin cfg0.N) (y : S1x512.Idx) : iblk m c 11 t y = (V m c main_v23 : S1x512.Idx → EReal) y := by
  show V m c main_v23 (((cfg0.win 11).blk t).view.emb y) = V m c main_v23 y
  refine congrArg _ (funext fun a => Fin.ext ?_)
  obtain ⟨e0, e1⟩ := idx11 t
  match a with
  | ⟨0, _⟩ => show win0_11.index t (0 : Fin 2) * 1 + 1 * (y 0).val = (y 0).val; omega
  | ⟨1, _⟩ => show win0_11.index t (1 : Fin 2) * 512 + 1 * (y 1).val = (y 1).val; omega

/-! ## What a point writes back -/

/-- The arguments, as arrays. -/
abbrev Garg (c : Dev nD) : S32768x10.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Point t writes back block t of G. -/
theorem flushed_eq (c : Dev nD) (t : Fin cfg0.N) :
    (dats m 0 c).flushed 12 t = ((cfg0.win 12).blk t).view.read (Elt Ideal) (Garg m c) := by
  rw [flushed12]
  unfold out0_12
  rw [View.canon_unit_zero hz]
  simp only [View.ld_unit_zero (S := S512x784) hz, View.ld_unit_zero (S := S784x2048) hz, View.ld_unit_zero (S := S1x2048) hz,
    View.ld_unit_zero (S := S2048x1024) hz, View.ld_unit_zero (S := S1x1024) hz, View.ld_unit_zero (S := S1024x512) hz,
    View.ld_unit_zero (S := S1x512) hz, View.ld_unit_zero (S := S512x10) hz]
  funext y
  obtain ⟨p, q, rfl⟩ : ∃ (p : Fin 512) (q : Fin 10), y = ix2 p q := ⟨y 0, y 1, eq_ix2 y⟩
  have hemb : ((cfg0.win 12).blk t).view.emb (ix2 p q) = ix2 (rowOf t p) q := by
    funext a; apply Fin.ext
    obtain ⟨-, -, e2, -⟩ := idx0 t
    match a with
    | ⟨0, _⟩ => show win0_12.index t (0 : Fin 2) * 512 + 1 * p.val = win0_12.index t (0 : Fin 2) * 512 + p.val; omega
    | ⟨1, _⟩ => show win0_12.index t (1 : Fin 2) * 10 + 1 * q.val = q.val; omega
  show k0_pay1 (k0_pay4 (k0_pay2 (iblk m c 0 t) (iblk m c 1 t) (iblk m c 2 t) (iblk m c 6 t) (iblk m c 7 t)) (k0_pay3 (F := Ideal))
        (iblk m c 3 t) (iblk m c 8 t) (iblk m c 9 t) (iblk m c 4 t))
      (k0_pay5 (k0_pay2 (iblk m c 0 t) (iblk m c 1 t) (iblk m c 2 t) (iblk m c 6 t) (iblk m c 7 t)) (k0_pay3 (F := Ideal))
        (iblk m c 3 t) (iblk m c 8 t) (iblk m c 9 t) (iblk m c 4 t))
      (iblk m c 10 t) (iblk m c 11 t) (iblk m c 5 t) (ix2 p q)
    = Garg m c (((cfg0.win 12).blk t).view.emb (ix2 p q))
  rw [hemb]
  refine (stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p q).trans ?_
  show _ = Grow _ _ _ _ _ _ _ _ _ _ _ (rowOf t p) q
  unfold Grow
  -- the first layer of the block is the folded first layer of row 512 t + p
  have h1 : h1blk (iblk m c 0 t) (iblk m c 1 t) (iblk m c 2 t) p
      = h1K (fun k => (m ((c : Thread nD τ).loc main_arg0) : S32768x784.Idx → EReal) (ix2 (rowOf t p) k))
          (fun k j => (m ((c : Thread nD τ).loc main_arg1) : S1568x2048.Idx → EReal) (ix2 k j)) := by
    funext j
    unfold h1blk h1K
    simp only [blk0 m c t, blk1 m c t, blk2 m c t, HostW.v6_apply m c, HostW.v8_apply m c]
  have hs1 : row (iblk m c 6 t) = fun j => (m ((c : Thread nD τ).loc main_arg5) : S2048.Idx → EReal) (ix1 j) :=
    funext fun j => (blk6 m c t _).trans (HostS.v18_apply m c 0 j)
  have hb1 : row (iblk m c 7 t) = fun j => (m ((c : Thread nD τ).loc main_arg6) : S2048.Idx → EReal) (ix1 j) :=
    funext fun j => (blk7 m c t _).trans (HostS.v19_apply m c 0 j)
  have hs2 : row (iblk m c 8 t) = fun j => (m ((c : Thread nD τ).loc main_arg7) : S1024.Idx → EReal) (ix1 j) :=
    funext fun j => (blk8 m c t _).trans (HostS.v20_apply m c 0 j)
  have hb2 : row (iblk m c 9 t) = fun j => (m ((c : Thread nD τ).loc main_arg8) : S1024.Idx → EReal) (ix1 j) :=
    funext fun j => (blk9 m c t _).trans (HostS.v21_apply m c 0 j)
  have hs3 : row (iblk m c 10 t) = fun j => (m ((c : Thread nD τ).loc main_arg9) : S512.Idx → EReal) (ix1 j) :=
    funext fun j => (blk10 m c t _).trans (HostS.v22_apply m c 0 j)
  have hb3 : row (iblk m c 11 t) = fun j => (m ((c : Thread nD τ).loc main_arg10) : S512.Idx → EReal) (ix1 j) :=
    funext fun j => (blk11 m c t _).trans (HostS.v23_apply m c 0 j)
  have hW2 : mat (iblk m c 3 t) = fun l j => hard ((m ((c : Thread nD τ).loc main_arg2) : S2048x1024.Idx → EReal) (ix2 l j)) :=
    funext fun l => funext fun j => (blk3 m c t _).trans (HostW.v11_apply m c l j)
  have hW3 : mat (iblk m c 4 t) = fun l j => hard ((m ((c : Thread nD τ).loc main_arg3) : S1024x512.Idx → EReal) (ix2 l j)) :=
    funext fun l => funext fun j => (blk4 m c t _).trans (HostW.v14_apply m c l j)
  have hW4 : mat (iblk m c 5 t) = fun l j => hard ((m ((c : Thread nD τ).loc main_arg4) : S512x10.Idx → EReal) (ix2 l j)) :=
    funext fun l => funext fun j => (blk5 m c t _).trans (HostW.v17_apply m c l j)
  rw [h1, hs1, hb1, hs2, hb2, hs3, hb3, hW2, hW3, hW4]

/-! ## The cover -/

/-- An index of the result is in point t's block iff each coordinate is in the block's range on its axis. -/
theorem mem_blk (t : Fin cfg0.N) (i : S32768x10.Idx) :
    i ∈ ((cfg0.win 12).blk t).view.set ↔ ∀ a : Fin 2, win0_12.index t a * S512x10.size a ≤ (i a).val ∧ (i a).val < win0_12.index t a * S512x10.size a + S512x10.size a := by
  show i ∈ ((View.whole main_v24).slice (win0_12.rect t)).set ↔ _
  rw [View.set_slice_whole, Rect.mem_set_unit]
  exact Iff.rfl

/-- Every index of the result is in the block of the point that holds its row band. -/
theorem cover (i : S32768x10.Idx) : ∃ t : Fin cfg0.N, (cfg0.win 12).flush t = true ∧ i ∈ ((cfg0.win 12).blk t).view.set := by
  have hi0 : (i 0).val < 32768 := (i 0).isLt
  have hi1 : (i 1).val < 10 := (i 1).isLt
  obtain ⟨t, ht⟩ := idx_onto ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 10 ≤ (i 1).val ∧ (i 1).val < win0_12.index t (1 : Fin 2) * 10 + 10; omega

/-- The result array after the run is G of the arguments. -/
theorem final (c : Dev nD) : (dats m 0 c).arrAt 12 cfg0.N = Garg m c :=
  (dats m 0 c).arrAt_eq_of_cover 12 (Garg m c) (fun t _ => flushed_eq m c t) (cover)

/-! ## The run -/

theorem run : θ_run defs (onTc (τ := τ) (main (F := Ideal))) ⟨m, fun _ => 0, ρ⟩ fun r => ∀ c : Dev nD,
      r.2.mem ((c : Thread nD τ).loc main_v24) = Garg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.KValue

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«113374_j10136122818966_2_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.RefValue.lean ====
/-
  The reference's result as the network function G of its arguments.

  The run's named intermediates are, by unfolding, the host idioms: each weight matrix and each activation goes through a
  straight-through estimator  soft + (hard - soft)  whose soft part is the logistic function spelt out, each normalisation
  is the keepdims form over [32768, n], each dense layer a dot_general.  Entry by entry the estimators are their hard
  parts, so entry (r, q) of the result is the three-layer tail applied to the plain first layer of row r — the doubled row
  (x, 1 - x) against the thresholded first matrix, whose sum over 1568 positions splits into its two halves.  For a real
  row x the plain first layer is the folded one, and the result is G.
-/
import proofs.«113374_j10136122818966_2_alg».proof.Proof.Gen.ReferenceIdeal.Run
import proofs.«113374_j10136122818966_2_alg».proof.Proof.LibHostLayers
import proofs.«113374_j10136122818966_2_alg».proof.Proof.LibDotNN
import proofs.«113374_j10136122818966_2_alg».proof.Proof.NetArray

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Value Cert.BinNet Cert.HLayers Cert.NormThreshold

variable (V0 : Valuation τ sig (Elt Ideal))

/-- The argument arrays. -/
abbrev A0 : FVec Ideal S32768x784 .f32 := V0 (Proc.devRef .tc main_arg0)
abbrev A1 : FVec Ideal S1568x2048 .f32 := V0 (Proc.devRef .tc main_arg1)
abbrev A2 : FVec Ideal S2048x1024 .f32 := V0 (Proc.devRef .tc main_arg2)
abbrev A3 : FVec Ideal S1024x512 .f32 := V0 (Proc.devRef .tc main_arg3)
abbrev A4 : FVec Ideal S512x10 .f32 := V0 (Proc.devRef .tc main_arg4)
abbrev A5 : FVec Ideal S2048 .f32 := V0 (Proc.devRef .tc main_arg5)
abbrev A6 : FVec Ideal S2048 .f32 := V0 (Proc.devRef .tc main_arg6)
abbrev A7 : FVec Ideal S1024 .f32 := V0 (Proc.devRef .tc main_arg7)
abbrev A8 : FVec Ideal S1024 .f32 := V0 (Proc.devRef .tc main_arg8)
abbrev A9 : FVec Ideal S512 .f32 := V0 (Proc.devRef .tc main_arg9)
abbrev A10 : FVec Ideal S512 .f32 := V0 (Proc.devRef .tc main_arg10)

/-- A sum over 1568 positions is the sum over the upper 784 plus the sum over the lower 784. -/
theorem sum_halves (f : Fin 1568 → EReal) : ∑ k, f k = (∑ k : Fin 784, f (lo k)) + ∑ k : Fin 784, f (hi k) := by
  have h := Fin.sum_univ_add (a := 784) (b := 784) (fun k : Fin (784 + 784) => f k)
  exact h

/-! ## The normalisations are the host idiom -/

theorem v38_eq : res_main_v38 V0 = hLN 0x45000000#32 0x358637BD#32 reducesTo_S32768x2048_S32768_d1 h_S_
    bcast_S32768_S32768x1_0 bcast_S_S32768x1 bcast_S32768x1_S32768x2048_0_1 bcast_S2048_S1x2048_1 bcast_S1x2048_S32768x2048_0_1
    (res_main_v14 V0) (A5 V0) (A6 V0) := rfl

theorem v87_eq : res_main_v87 V0 = hLN 0x44800000#32 0x358637BD#32 reducesTo_S32768x1024_S32768_d1 h_S_
    bcast_S32768_S32768x1_0 bcast_S_S32768x1 bcast_S32768x1_S32768x1024_0_1 bcast_S1024_S1x1024_1 bcast_S1x1024_S32768x1024_0_1
    (res_main_v63 V0) (A7 V0) (A8 V0) := rfl

theorem v136_eq : res_main_v136 V0 = hLN 0x44000000#32 0x358637BD#32 reducesTo_S32768x512_S32768_d1 h_S_
    bcast_S32768_S32768x1_0 bcast_S_S32768x1 bcast_S32768x1_S32768x512_0_1 bcast_S512_S1x512_1 bcast_S1x512_S32768x512_0_1
    (res_main_v112 V0) (A9 V0) (A10 V0) := rfl

/-! ## The layers at an entry -/

/-- The doubled input (x, 1 - x). -/
abbrev doubled : FVec Ideal S32768x1568 .f32 :=
  fn_main_v2 (A0 V0) (subf (broadcastInDim S32768x784 ![] bcast_S_S32768x784 (constant (F := Ideal) S_ .f32 0x3F800000#32)) (A0 V0))

theorem doubled_lo (r : Fin 32768) (k : Fin 784) : doubled V0 (ix2 r (lo k)) = A0 V0 (ix2 r k) :=
  concatenate_pair_apply_left (t := S32768x1568) (s₁ := S32768x784) (s₂ := S32768x784) 1 _ _ _ (ix2 r (lo k)) rfl (ix2 r k) (fun b => by
    match b with
    | ⟨0, _⟩ => rfl
    | ⟨1, _⟩ => rfl)

theorem doubled_hi (r : Fin 32768) (k : Fin 784) :
    doubled V0 (ix2 r (hi k)) = Ideal.ofBits .f32 0x3F800000#32 - A0 V0 (ix2 r k) := by
  refine (concatenate_pair_apply_right (t := S32768x1568) (s₁ := S32768x784) (s₂ := S32768x784) 1 _ _ _ (ix2 r (hi k)) rfl rfl (ix2 r k) (fun b hb => by
    match b with
    | ⟨0, _⟩ => rfl
    | ⟨1, _⟩ => exact absurd rfl hb) (by show k.val + 784 = 784 + k.val; omega)).trans ?_
  show broadcastInDim S32768x784 ![] bcast_S_S32768x784 (constant (F := Ideal) S_ .f32 0x3F800000#32) (ix2 r k) - A0 V0 (ix2 r k) = _
  rw [splat_apply]

/-- The first dense layer at (r, j): the plain form. -/
theorem h1_apply (r : Fin 32768) (j : Fin 2048) :
    res_main_v14 V0 (ix2 r j) = h1R (fun k => A0 V0 (ix2 r k)) (fun k j => A1 V0 (ix2 k j)) j := by
  unfold res_main_v14
  refine (Cert.DotNN.dotGeneral_apply dot_S32768x1568_S1568x2048_S32768x2048_1_0_0_1_n_n rfl none .single _ _ r j).trans ?_
  refine (sum_halves _).trans ?_
  unfold h1R
  refine congrArg₂ (fun s t => s + t) (Finset.sum_congr rfl fun k _ => ?_) (Finset.sum_congr rfl fun k _ => ?_)
  · exact congrArg₂ (fun s t => s * t) (doubled_lo V0 r k)
      (ste_apply bcast_S_S1568x2048 bcast_S_S1568x2048 (A1 V0) (A1 V0) (ix2 (lo k) j))
  · exact congrArg₂ (fun s t => s * t) (doubled_hi V0 r k)
      (ste_apply bcast_S_S1568x2048 bcast_S_S1568x2048 (A1 V0) (A1 V0) (ix2 (hi k) j))

/-- Row r after the first normalisation. -/
abbrev n1 (r : Fin 32768) : Fin 2048 → EReal :=
  lnRow (Ideal.ofBits .f32 0x45000000#32) (Ideal.ofBits .f32 0x358637BD#32)
    (h1R (fun k => A0 V0 (ix2 r k)) (fun k j => A1 V0 (ix2 k j))) (fun j => A5 V0 (ix1 j)) (fun j => A6 V0 (ix1 j))

theorem n1_apply (r : Fin 32768) (k : Fin 2048) : res_main_v38 V0 (ix2 r k) = n1 V0 r k := by
  rw [v38_eq]
  refine (hLN_apply _ _ _ (by decide) _ _ _ _ _ _ _ _ _ r k).trans ?_
  exact congrArg (fun f => lnRow _ _ f (fun j => A5 V0 (ix1 j)) (fun j => A6 V0 (ix1 j)) k) (funext fun j => h1_apply V0 r j)

/-- Row r after the second dense layer. -/
abbrev d2 (r : Fin 32768) : Fin 1024 → EReal :=
  dense (fun k => hard (n1 V0 r k)) (fun k j => hard (A2 V0 (ix2 k j)))

theorem d2_apply (r : Fin 32768) (l : Fin 1024) : res_main_v63 V0 (ix2 r l) = d2 V0 r l := by
  unfold res_main_v63
  refine (Cert.DotNN.dotGeneral_apply dot_S32768x2048_S2048x1024_S32768x1024_1_0_0_1_n_n rfl none .single _ _ r l).trans ?_
  refine Finset.sum_congr rfl fun k _ => congrArg₂ (fun s t => s * t) ?_ ?_
  · refine (ste_apply bcast_S_S32768x2048 bcast_S_S32768x2048 _ (res_main_v38 V0) (ix2 r k)).trans ?_
    rw [n1_apply]
  · exact ste_apply bcast_S_S2048x1024 bcast_S_S2048x1024 (A2 V0) (A2 V0) (ix2 k l)

abbrev n2 (r : Fin 32768) : Fin 1024 → EReal :=
  lnRow (Ideal.ofBits .f32 0x44800000#32) (Ideal.ofBits .f32 0x358637BD#32) (d2 V0 r) (fun j => A7 V0 (ix1 j)) (fun j => A8 V0 (ix1 j))

theorem n2_apply (r : Fin 32768) (k : Fin 1024) : res_main_v87 V0 (ix2 r k) = n2 V0 r k := by
  rw [v87_eq]
  refine (hLN_apply _ _ _ (by decide) _ _ _ _ _ _ _ _ _ r k).trans ?_
  exact congrArg (fun f => lnRow _ _ f (fun j => A7 V0 (ix1 j)) (fun j => A8 V0 (ix1 j)) k) (funext fun j => d2_apply V0 r j)

abbrev d3 (r : Fin 32768) : Fin 512 → EReal :=
  dense (fun k => hard (n2 V0 r k)) (fun k j => hard (A3 V0 (ix2 k j)))

theorem d3_apply (r : Fin 32768) (l : Fin 512) : res_main_v112 V0 (ix2 r l) = d3 V0 r l := by
  unfold res_main_v112
  refine (Cert.DotNN.dotGeneral_apply dot_S32768x1024_S1024x512_S32768x512_1_0_0_1_n_n rfl none .single _ _ r l).trans ?_
  refine Finset.sum_congr rfl fun k _ => congrArg₂ (fun s t => s * t) ?_ ?_
  · refine (ste_apply bcast_S_S32768x1024 bcast_S_S32768x1024 _ (res_main_v87 V0) (ix2 r k)).trans ?_
    rw [n2_apply]
  · exact ste_apply bcast_S_S1024x512 bcast_S_S1024x512 (A3 V0) (A3 V0) (ix2 k l)

abbrev n3 (r : Fin 32768) : Fin 512 → EReal :=
  lnRow (Ideal.ofBits .f32 0x44000000#32) (Ideal.ofBits .f32 0x358637BD#32) (d3 V0 r) (fun j => A9 V0 (ix1 j)) (fun j => A10 V0 (ix1 j))

theorem n3_apply (r : Fin 32768) (k : Fin 512) : res_main_v136 V0 (ix2 r k) = n3 V0 r k := by
  rw [v136_eq]
  refine (hLN_apply _ _ _ (by decide) _ _ _ _ _ _ _ _ _ r k).trans ?_
  exact congrArg (fun f => lnRow _ _ f (fun j => A9 V0 (ix1 j)) (fun j => A10 V0 (ix1 j)) k) (funext fun j => d3_apply V0 r j)

/-! ## The result -/

/-- The run's result term. -/
abbrev resultTerm : FVec Ideal S32768x10 .f32 :=
  Host.dotGeneral dot_S32768x512_S512x10_S32768x10_1_0_0_1_n_n none
    (addf (res_main_v144 V0) (subf (uitofp (F := Ideal) .f32 (cmpf .ogt (res_main_v136 V0) (broadcastInDim S32768x512 ![] bcast_S_S32768x512 (constant (F := Ideal) S_ .f32 0x00000000#32)))) (res_main_v144 V0)))
    (addf (res_main_v155 V0) (subf (uitofp (F := Ideal) .f32 (cmpf .ogt (A4 V0) (broadcastInDim S512x10 ![] bcast_S_S512x10 (constant (F := Ideal) S_ .f32 0x00000000#32)))) (res_main_v155 V0)))

/-- For a real input x the reference's result is G of its arguments. -/
theorem result_eq (hx : ∀ i, ∃ x : ℝ, A0 V0 i = (x : EReal)) :
    resultTerm V0 = G (A0 V0) (A1 V0) (A2 V0) (A3 V0) (A4 V0) (A5 V0) (A6 V0) (A7 V0) (A8 V0) (A9 V0) (A10 V0) := by
  funext i
  obtain ⟨r, q, rfl⟩ : ∃ (r : Fin 32768) (q : Fin 10), i = ix2 r q := ⟨i 0, i 1, eq_ix2 i⟩
  rw [G_apply]
  refine (Cert.DotNN.dotGeneral_apply dot_S32768x512_S512x10_S32768x10_1_0_0_1_n_n rfl none .single _ _ r q).trans ?_
  unfold Grow tail
  refine Finset.sum_congr rfl fun k _ => congrArg₂ (fun s t => s * t) ?_ ?_
  · refine (ste_apply bcast_S_S32768x512 bcast_S_S32768x512 _ (res_main_v136 V0) (ix2 r k)).trans ?_
    rw [n3_apply]
    have e : h1R (fun k => A0 V0 (ix2 r k)) (fun k j => A1 V0 (ix2 k j)) = h1K (fun k => A0 V0 (ix2 r k)) (fun k j => A1 V0 (ix2 k j)) :=
      funext fun j => (h1K_eq_h1R _ (fun k => hx (ix2 r k)) _ j).symm
    show hard (lnRow _ _ (dense (fun k => hard (lnRow _ _ (dense (fun k => hard (lnRow _ _
      (h1R (fun k => A0 V0 (ix2 r k)) (fun k j => A1 V0 (ix2 k j))) _ _ k)) _) _ _ k)) _) _ _ k) = _
    rw [e]
  · exact ste_apply bcast_S_S512x10 bcast_S_S512x10 (A4 V0) (A4 V0) (ix2 k q)

end Cert.ReferenceIdeal.RefValue

end
-- ==== Proof.FiniteReal.lean ====
/-
  Finite inputs are real numbers.

  The precondition is the conjunction, over the eleven argument arrays, of "every entry has absolute value below +inf".
  Its first conjunct, read at an entry of x, says  max(x, -x) < +inf  on the extended reals, which rules out both
  infinities: the entry is a real.
-/
import proofs.«113374_j10136122818966_2_alg».proof.Pre_finite_inputs
import Idealize.ShloMosaic.PureOps.Ideal.Laws
import Idealize.ShloMosaic.Lib.ReduceAll
import Idealize.ShloMosaic.Lib.IdealHost
import Idealize.ShloMosaic.Lib.ValueIdx

noncomputable section

namespace Cert.Pre_finite_inputs.Reals

open Idealize.ShloMosaic Idealize.ShloMosaic.ValueIdx Cert.Pre_finite_inputs

instance : Subsingleton S_.Idx := ⟨fun a b => funext fun d => d.elim0⟩

/-- The f32 pattern of +inf is the top of the extended reals. -/
theorem ofBits_inf : Ideal.ofBits .f32 0x7F800000#32 = ⊤ := by
  simp [Ideal.ofBits, Ideal.ieee]

/-- An extended real whose absolute value is below +inf is a real. -/
theorem real_of_abs_lt_top (a : EReal) (h : max a (-a) < ⊤) : ∃ r : ℝ, a = (r : EReal) := by
  induction a using EReal.rec with
  | bot => simp at h
  | coe r => exact ⟨r, rfl⟩
  | top => simp at h

variable [Facts]
open Facts

/-- Under the precondition every entry of the first argument is a real. -/
theorem x_real (a0 : FVec Ideal S32768x784 .f32) (a1 : FVec Ideal S1568x2048 .f32) (a2 : FVec Ideal S2048x1024 .f32) (a3 : FVec Ideal S1024x512 .f32) (a4 : FVec Ideal S512x10 .f32) (a5 a6 : FVec Ideal S2048 .f32) (a7 a8 : FVec Ideal S1024 .f32) (a9 a10 : FVec Ideal S512 .f32)
    (h : fn (F := Ideal) a0 a1 a2 a3 a4 a5 a6 a7 a8 a9 a10 = fun _ => 1#1) (i : S32768x784.Idx) :
    ∃ r : ℝ, a0 i = (r : EReal) := by
  have h0 : fn (F := Ideal) a0 a1 a2 a3 a4 a5 a6 a7 a8 a9 a10 ix0 = 1#1 := congrFun h ix0
  dsimp only [fn, fn_part1, fn_part2, fn_part3] at h0
  -- the outermost of ten conjunctions down to the innermost, whose left part is "all of |x| < +inf"
  have h3 := (IntOp.andi_eq_one.1 (IntOp.andi_eq_one.1 (IntOp.andi_eq_one.1 (IntOp.andi_eq_one.1 (IntOp.andi_eq_one.1
    (IntOp.andi_eq_one.1 (IntOp.andi_eq_one.1 (IntOp.andi_eq_one.1 (IntOp.andi_eq_one.1 (IntOp.andi_eq_one.1 h0).1).1).1).1).1).1).1).1).1).1
  have hi : (cmpf .olt (Host.absf a0) (broadcastInDim S32768x784 ![] bcast_S_S32768x784 (constant (F := Ideal) S_ .f32 0x7F800000#32))
      : IVec S32768x784 1) i = 1#1 :=
    Host.reduce_andi_all _ _ reducesTo_S32768x784_S_d0_1 h_S_ ix0 h3 i
  have e : BitVec.ofBool (decide (max (a0 i) (-(a0 i))
      < broadcastInDim S32768x784 ![] bcast_S_S32768x784 (constant (F := Ideal) S_ .f32 0x7F800000#32) i)) = 1#1 := hi
  rw [broadcastInDim_scalar_apply] at e
  have hP : max (a0 i) (-(a0 i)) < Ideal.ofBits .f32 0x7F800000#32 := by
    by_contra hn
    have e' : BitVec.ofBool (decide (max (a0 i) (-(a0 i)) < Ideal.ofBits .f32 0x7F800000#32)) = 1#1 := e
    rw [decide_eq_false hn] at e'
    exact absurd e' (by decide)
  rw [ofBits_inf] at hP
  exact real_of_abs_lt_top _ hP

end Cert.Pre_finite_inputs.Reals

end
-- ==== Proof.lean ====
/-
  A binarized four-layer perceptron: the Pallas kernel against the jnp reference, at the ideal instance.

  Both programs compute, for every row r of x and class q,
      G[r, q] = dense(act(ln3(dense(act(ln2(dense(act(ln1(h1 r)))))))))[q],
  with  act z = 1 if 0 < z else 0,  every weight matrix thresholded the same way, and ln the layer normalisation with
  divisors 2048, 1024, 512 and one shared epsilon literal.

  * The kernel folds the first layer,  x (A - B) + (x - x)(A - B) + colsum B,  where A, B are the two halves of the
    thresholded first matrix (the middle term vanishes for a real x), and
    thresholds the weights on the host before the call.  Its result array is G by the generated frame run, the body's
    stored value at an entry, and the cover of the result by the 64 row bands.
  * The reference feeds (x, 1 - x) to the whole first matrix and wraps every weight and activation in a straight-through
    estimator  soft + (hard - soft).  Entry by entry the estimator is its hard part (the logistic soft part is a real for
    every extended real), and for a real row x the plain first layer is the folded one — the only use of the precondition.
  * The one sanctioned rewrite of the ideal pass, a round trip f32 -> bf16 -> f32 replaced by the identity, is the rule's
    own statement.
-/
import proofs.«113374_j10136122818966_2_alg».proof.Defs
import proofs.«113374_j10136122818966_2_alg».proof.Proof.Gen.Kernel
import proofs.«113374_j10136122818966_2_alg».proof.Proof.Gen.Kernel.Skeleton
import proofs.«113374_j10136122818966_2_alg».proof.Proof.Gen.Kernel.Launch
import proofs.«113374_j10136122818966_2_alg».proof.Proof.Gen.Kernel.Points
import proofs.«113374_j10136122818966_2_alg».proof.Proof.Gen.Kernel.Frame
import proofs.«113374_j10136122818966_2_alg».proof.Proof.Gen.KernelIdeal
import proofs.«113374_j10136122818966_2_alg».proof.Proof.Gen.KernelIdeal.Skeleton
import proofs.«113374_j10136122818966_2_alg».proof.Proof.Gen.KernelIdeal.Launch
import proofs.«113374_j10136122818966_2_alg».proof.Proof.Gen.KernelIdeal.Points
import proofs.«113374_j10136122818966_2_alg».proof.Proof.Gen.KernelIdeal.Frame
import proofs.«113374_j10136122818966_2_alg».proof.Proof.Gen.ReferenceIdeal
import proofs.«113374_j10136122818966_2_alg».proof.Proof.Gen.Pre_finite_inputs
import proofs.«113374_j10136122818966_2_alg».proof.Proof.Gen.KernelIdeal.Value
import proofs.«113374_j10136122818966_2_alg».proof.Proof.Gen.ReferenceIdeal.Run
import proofs.«113374_j10136122818966_2_alg».proof.Proof.KernelValue
import proofs.«113374_j10136122818966_2_alg».proof.Proof.RefValue
import proofs.«113374_j10136122818966_2_alg».proof.Proof.FiniteReal
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: extending a value just rounded to bf16 back to f32 is, at the ideal instance, the value. -/
theorem preserves : Cert.preserves_Kernel_KernelIdeal :=
  IdealRules.truncf_extf.statement _ .f32 .bf16

/-- Both runs end with the result array at G of the (agreeing) arguments. -/
theorem algebraic : Cert.algebraic_KernelIdeal_ReferenceIdeal := by
  intro m ρ m' ρ' hpre hagree
  refine ⟨fun c => Cert.KernelIdeal.KValue.Garg m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hx : ∀ i, ∃ x : ℝ, Cert.ReferenceIdeal.RefValue.A0 (launchContents m' c) i = (x : EReal) := fun i => by
    show ∃ x : ℝ, m' ((c.tc : Thread Cert.ReferenceIdeal.nD Cert.ReferenceIdeal.τ).loc Cert.ReferenceIdeal.main_arg0) i = (x : EReal)
    rw [(hagree c).1]
    exact Cert.Pre_finite_inputs.Reals.x_real _ _ _ _ _ _ _ _ _ _ _ (hpre c) i
  refine (Cert.ReferenceIdeal.RefValue.result_eq (launchContents m' c) hx).trans ?_
  show Cert.BinNet.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
